-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S6000000x2 : Shape := ⟨2, ![6000000, 2]⟩
abbrev S16x3 : Shape := ⟨2, ![16, 3]⟩
abbrev S16 : Shape := ⟨1, ![16]⟩
abbrev S3x16 : Shape := ⟨2, ![3, 16]⟩
abbrev S3 : Shape := ⟨1, ![3]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S16x3 : S_.BroadcastsInDim S16x3 (![] : Fin 0 → Fin S16x3.rank)
  reducesTo_S16x3_S_d0_1 : S16x3.ReducesTo [0, 1] S_
  bcast_S_S16 : S_.BroadcastsInDim S16 (![] : Fin 0 → Fin S16.rank)
  reducesTo_S16_S_d0 : S16.ReducesTo [0] S_
  bcast_S_S3x16 : S_.BroadcastsInDim S3x16 (![] : Fin 0 → Fin S3x16.rank)
  reducesTo_S3x16_S_d0_1 : S3x16.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3x16 .f32) (main_arg9 : FVec F S3 .f32) (main_v33 : IVec S_ 1) : IVec S_ 1 :=
  let main_v34 : FVec F S3x16 .f32 := Host.absf main_arg8
  let main_cst_12 : FVec F S_ .f32 := constant S_ .f32 0x7F800000#32
  let main_v35 : FVec F S3x16 .f32 := broadcastInDim S3x16 ![] bcast_S_S3x16 main_cst_12
  let main_v36 : IVec S3x16 1 := cmpf .olt main_v34 main_v35
  let main_c_13 : IVec S_ 1 := constantI S_ 1 1#1
  let main_v37 : IVec S_ 1 := (fun x v => Host.reduce IntOp.andi x v reducesTo_S3x16_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S16 .f32) (main_arg6 : FVec F S3x16 .f32) (main_arg7 : FVec F S3 .f32) (main_arg8 : FVec F S3x16 .f32) (main_arg9 : FVec F S3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S3x16 .f32 := Host.absf main_arg6
  let main_cst_8 : FVec F S_ .f32 := constant S_ .f32 0x7F800000#32
  let main_v25 : FVec F S3x16 .f32 := broadcastInDim S3x16 ![] bcast_S_S3x16 main_cst_8
  let main_v26 : IVec S3x16 1 := cmpf .olt main_v24 main_v25
  let main_c_9 : IVec S_ 1 := constantI S_ 1 1#1
  let main_v27 : IVec S_ 1 := (fun x v => Host.reduce IntOp.andi x v reducesTo_S3x16_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg8 main_arg9 main_v33

def fn {F : FTy → Type} [FloatOps F] (main_arg0 : FVec F S2000000x3 .f32) (main_arg1 : IVec S6000000x2 32) (main_arg2 : FVec F S16x3 .f32) (main_arg3 : FVec F S16 .f32) (main_arg4 : FVec F S16x3 .f32) (main_arg5 : FVec F S16 .f32) (main_arg6 : FVec F S3x16 .f32) (main_arg7 : FVec F S3 .f32) (main_arg8 : FVec F S3x16 .f32) (main_arg9 : FVec F S3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S16x3 .f32 := Host.absf main_arg2
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x3 .f32 := Host.absf main_arg4
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg5 main_arg6 main_arg7 main_arg8 main_arg9 main_v13 main_v16
-- ==== Kernel.lean ====
abbrev S2000000x3 : Shape := ⟨2, ![2000000, 3]⟩
abbrev S6000000x2 : Shape := ⟨2, ![6000000, 2]⟩
abbrev S16x3 : Shape := ⟨2, ![16, 3]⟩
abbrev S16 : Shape := ⟨1, ![16]⟩
abbrev S3x16 : Shape := ⟨2, ![3, 16]⟩
abbrev S3 : Shape := ⟨1, ![3]⟩
abbrev S6000000x1 : Shape := ⟨2, ![6000000, 1]⟩
abbrev S6000000 : Shape := ⟨1, ![6000000]⟩
abbrev S_ : Shape := ⟨0, ![]⟩
abbrev S6000000x3 : Shape := ⟨2, ![6000000, 3]⟩
abbrev S2000000x1 : Shape := ⟨2, ![2000000, 1]⟩
abbrev S4000x3 : Shape := ⟨2, ![4000, 3]⟩
abbrev S4000x1 : Shape := ⟨2, ![4000, 1]⟩
abbrev S4000x16 : Shape := ⟨2, ![4000, 16]⟩
abbrev S1x16 : Shape := ⟨2, ![1, 16]⟩
abbrev S1x3 : Shape := ⟨2, ![1, 3]⟩

abbrev nBuf : Space → Nat
  | .hbm => 114
  | .vmem => 18
  | .smem => 0
  | _ => 0

abbrev bufTy : (tb : Table) → Fin (tcTables nBuf tb) → BufTy
  | .hbm, ⟨0, _⟩ => ⟨S2000000x3, .f32⟩
  | .hbm, ⟨1, _⟩ => ⟨S6000000x2, .i32⟩
  | .hbm, ⟨2, _⟩ => ⟨S16x3, .f32⟩
  | .hbm, ⟨3, _⟩ => ⟨S16, .f32⟩
  | .hbm, ⟨4, _⟩ => ⟨S16x3, .f32⟩
  | .hbm, ⟨5, _⟩ => ⟨S16, .f32⟩
  | .hbm, ⟨6, _⟩ => ⟨S3x16, .f32⟩
  | .hbm, ⟨7, _⟩ => ⟨S3, .f32⟩
  | .hbm, ⟨8, _⟩ => ⟨S3x16, .f32⟩
  | .hbm, ⟨9, _⟩ => ⟨S3, .f32⟩
  | .hbm, ⟨10, _⟩ => ⟨S6000000x1, .i32⟩
  | .hbm, ⟨11, _⟩ => ⟨S6000000, .i32⟩
  | .hbm, ⟨12, _⟩ => ⟨S6000000x1, .i32⟩
  | .hbm, ⟨13, _⟩ => ⟨S6000000, .i32⟩
  | .hbm, ⟨14, _⟩ => ⟨S_, .f32⟩
  | .hbm, ⟨15, _⟩ => ⟨S2000000x3, .f32⟩
  | .hbm, ⟨16, _⟩ => ⟨S_, .i32⟩
  | .hbm, ⟨17, _⟩ => ⟨S6000000, .i32⟩
  | .hbm, ⟨18, _⟩ => ⟨S6000000, .i1⟩
  | .hbm, ⟨19, _⟩ => ⟨S_, .i32⟩
  | .hbm, ⟨20, _⟩ => ⟨S6000000, .i32⟩
  | .hbm, ⟨21, _⟩ => ⟨S6000000, .i32⟩
  | .hbm, ⟨22, _⟩ => ⟨S6000000, .i32⟩
  | .hbm, ⟨23, _⟩ => ⟨S6000000x1, .i32⟩
  | .hbm, ⟨24, _⟩ => ⟨S6000000x3, .f32⟩
  | .hbm, ⟨25, _⟩ => ⟨S_, .i32⟩
  | .hbm, ⟨26, _⟩ => ⟨S6000000, .i32⟩
  | .hbm, ⟨27, _⟩ => ⟨S6000000, .i1⟩
  | .hbm, ⟨28, _⟩ => ⟨S_, .i32⟩
  | .hbm, ⟨29, _⟩ => ⟨S6000000, .i32⟩
  | .hbm, ⟨30, _⟩ => ⟨S6000000, .i32⟩
  | .hbm, ⟨31, _⟩ => ⟨S6000000, .i32⟩
  | .hbm, ⟨32, _⟩ => ⟨S6000000x1, .i32⟩
  | .hbm, ⟨33, _⟩ => ⟨S2000000x3, .f32⟩
  | .hbm, ⟨34, _⟩ => ⟨S_, .i32⟩
  | .hbm, ⟨35, _⟩ => ⟨S6000000, .i32⟩
  | .hbm, ⟨36, _⟩ => ⟨S6000000, .i1⟩
  | .hbm, ⟨37, _⟩ => ⟨S_, .i32⟩
  | .hbm, ⟨38, _⟩ => ⟨S6000000, .i32⟩
  | .hbm, ⟨39, _⟩ => ⟨S6000000, .i32⟩
  | .hbm, ⟨40, _⟩ => ⟨S6000000, .i32⟩
  | .hbm, ⟨41, _⟩ => ⟨S6000000x1, .i32⟩
  | .hbm, ⟨42, _⟩ => ⟨S6000000x3, .f32⟩
  | .hbm, ⟨43, _⟩ => ⟨S_, .i32⟩
  | .hbm, ⟨44, _⟩ => ⟨S6000000, .i32⟩
  | .hbm, ⟨45, _⟩ => ⟨S6000000, .i1⟩
  | .hbm, ⟨46, _⟩ => ⟨S_, .i32⟩
  | .hbm, ⟨47, _⟩ => ⟨S6000000, .i32⟩
  | .hbm, ⟨48, _⟩ => ⟨S6000000, .i32⟩
  | .hbm, ⟨49, _⟩ => ⟨S6000000, .i32⟩
  | .hbm, ⟨50, _⟩ => ⟨S6000000x1, .i32⟩
  | .hbm, ⟨51, _⟩ => ⟨S2000000x3, .f32⟩
  | .hbm, ⟨52, _⟩ => ⟨S_, .f32⟩
  | .hbm, ⟨53, _⟩ => ⟨S2000000x1, .f32⟩
  | .hbm, ⟨54, _⟩ => ⟨S_, .i32⟩
  | .hbm, ⟨55, _⟩ => ⟨S6000000, .i32⟩
  | .hbm, ⟨56, _⟩ => ⟨S6000000, .i1⟩
  | .hbm, ⟨57, _⟩ => ⟨S_, .i32⟩
  | .hbm, ⟨58, _⟩ => ⟨S6000000, .i32⟩
  | .hbm, ⟨59, _⟩ => ⟨S6000000, .i32⟩
  | .hbm, ⟨60, _⟩ => ⟨S6000000, .i32⟩
  | .hbm, ⟨61, _⟩ => ⟨S6000000x1, .i32⟩
  | .hbm, ⟨62, _⟩ => ⟨S_, .f32⟩
  | .hbm, ⟨63, _⟩ => ⟨S6000000x1, .f32⟩
  | .hbm, ⟨64, _⟩ => ⟨S2000000x1, .f32⟩
  | .hbm, ⟨65, _⟩ => ⟨S_, .i32⟩
  | .hbm, ⟨66, _⟩ => ⟨S6000000, .i32⟩
  | .hbm, ⟨67, _⟩ => ⟨S6000000, .i1⟩
  | .hbm, ⟨68, _⟩ => ⟨S_, .i32⟩
  | .hbm, ⟨69, _⟩ => ⟨S6000000, .i32⟩
  | .hbm, ⟨70, _⟩ => ⟨S6000000, .i32⟩
  | .hbm, ⟨71, _⟩ => ⟨S6000000, .i32⟩
  | .hbm, ⟨72, _⟩ => ⟨S6000000x1, .i32⟩
  | .hbm, ⟨73, _⟩ => ⟨S_, .f32⟩
  | .hbm, ⟨74, _⟩ => ⟨S6000000x1, .f32⟩
  | .hbm, ⟨75, _⟩ => ⟨S2000000x1, .f32⟩
  | .hbm, ⟨76, _⟩ => ⟨S2000000x3, .f32⟩
  | .hbm, ⟨77, _⟩ => ⟨S2000000x3, .f32⟩
  | .hbm, ⟨78, _⟩ => ⟨S_, .i32⟩
  | .hbm, ⟨79, _⟩ => ⟨S6000000, .i32⟩
  | .hbm, ⟨80, _⟩ => ⟨S6000000, .i1⟩
  | .hbm, ⟨81, _⟩ => ⟨S_, .i32⟩
  | .hbm, ⟨82, _⟩ => ⟨S6000000, .i32⟩
  | .hbm, ⟨83, _⟩ => ⟨S6000000, .i32⟩
  | .hbm, ⟨84, _⟩ => ⟨S6000000, .i32⟩
  | .hbm, ⟨85, _⟩ => ⟨S6000000x1, .i32⟩
  | .hbm, ⟨86, _⟩ => ⟨S6000000x3, .f32⟩
  | .hbm, ⟨87, _⟩ => ⟨S_, .i32⟩
  | .hbm, ⟨88, _⟩ => ⟨S6000000, .i32⟩
  | .hbm, ⟨89, _⟩ => ⟨S6000000, .i1⟩
  | .hbm, ⟨90, _⟩ => ⟨S_, .i32⟩
  | .hbm, ⟨91, _⟩ => ⟨S6000000, .i32⟩
  | .hbm, ⟨92, _⟩ => ⟨S6000000, .i32⟩
  | .hbm, ⟨93, _⟩ => ⟨S6000000, .i32⟩
  | .hbm, ⟨94, _⟩ => ⟨S6000000x1, .i32⟩
  | .hbm, ⟨95, _⟩ => ⟨S2000000x3, .f32⟩
  | .hbm, ⟨96, _⟩ => ⟨S_, .i32⟩
  | .hbm, ⟨97, _⟩ => ⟨S6000000, .i32⟩
  | .hbm, ⟨98, _⟩ => ⟨S6000000, .i1⟩
  | .hbm, ⟨99, _⟩ => ⟨S_, .i32⟩
  | .hbm, ⟨100, _⟩ => ⟨S6000000, .i32⟩
  | .hbm, ⟨101, _⟩ => ⟨S6000000, .i32⟩
  | .hbm, ⟨102, _⟩ => ⟨S6000000, .i32⟩
  | .hbm, ⟨103, _⟩ => ⟨S6000000x1, .i32⟩
  | .hbm, ⟨104, _⟩ => ⟨S6000000x3, .f32⟩
  | .hbm, ⟨105, _⟩ => ⟨S_, .i32⟩
  | .hbm, ⟨106, _⟩ => ⟨S6000000, .i32⟩
  | .hbm, ⟨107, _⟩ => ⟨S6000000, .i1⟩
  | .hbm, ⟨108, _⟩ => ⟨S_, .i32⟩
  | .hbm, ⟨109, _⟩ => ⟨S6000000, .i32⟩
  | .hbm, ⟨110, _⟩ => ⟨S6000000, .i32⟩
  | .hbm, ⟨111, _⟩ => ⟨S6000000, .i32⟩
  | .hbm, ⟨112, _⟩ => ⟨S6000000x1, .i32⟩
  | .hbm, ⟨113, _⟩ => ⟨S2000000x3, .f32⟩
  | .local _ .vmem, ⟨0, _⟩ => ⟨S4000x3, .f32⟩
  | .local _ .vmem, ⟨1, _⟩ => ⟨S4000x3, .f32⟩
  | .local _ .vmem, ⟨2, _⟩ => ⟨S4000x3, .f32⟩
  | .local _ .vmem, ⟨3, _⟩ => ⟨S4000x3, .f32⟩
  | .local _ .vmem, ⟨4, _⟩ => ⟨S4000x1, .f32⟩
  | .local _ .vmem, ⟨5, _⟩ => ⟨S4000x1, .f32⟩
  | .local _ .vmem, ⟨6, _⟩ => ⟨S16x3, .f32⟩
  | .local _ .vmem, ⟨7, _⟩ => ⟨S16, .f32⟩
  | .local _ .vmem, ⟨8, _⟩ => ⟨S16x3, .f32⟩
  | .local _ .vmem, ⟨9, _⟩ => ⟨S16, .f32⟩
  | .local _ .vmem, ⟨10, _⟩ => ⟨S3x16, .f32⟩
  | .local _ .vmem, ⟨11, _⟩ => ⟨S3, .f32⟩
  | .local _ .vmem, ⟨12, _⟩ => ⟨S3x16, .f32⟩
  | .local _ .vmem, ⟨13, _⟩ => ⟨S3, .f32⟩
  | .local _ .vmem, ⟨14, _⟩ => ⟨S4000x3, .f32⟩
  | .local _ .vmem, ⟨15, _⟩ => ⟨S4000x3, .f32⟩
  | .local _ .vmem, ⟨16, _⟩ => ⟨S4000x3, .f32⟩
  | .local _ .vmem, ⟨17, _⟩ => ⟨S4000x3, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_v50_0 : Ref sig .tc := ⟨.hbm, 76, rfl⟩
abbrev main_v50_1 : Ref sig .tc := ⟨.hbm, 77, rfl⟩
abbrev main_c_14 : Ref sig .tc := ⟨.hbm, 78, rfl⟩
abbrev main_v51 : Ref sig .tc := ⟨.hbm, 79, rfl⟩
abbrev main_v52 : Ref sig .tc := ⟨.hbm, 80, rfl⟩
abbrev main_c_15 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_16 : Ref sig .tc := ⟨.hbm, 87, rfl⟩
abbrev main_v58 : Ref sig .tc := ⟨.hbm, 88, rfl⟩
abbrev main_v59 : Ref sig .tc := ⟨.hbm, 89, rfl⟩
abbrev main_c_17 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_18 : Ref sig .tc := ⟨.hbm, 96, rfl⟩
abbrev main_v65 : Ref sig .tc := ⟨.hbm, 97, rfl⟩
abbrev main_v66 : Ref sig .tc := ⟨.hbm, 98, rfl⟩
abbrev main_c_19 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_20 : Ref sig .tc := ⟨.hbm, 105, rfl⟩
abbrev main_v72 : Ref sig .tc := ⟨.hbm, 106, rfl⟩
abbrev main_v73 : Ref sig .tc := ⟨.hbm, 107, rfl⟩
abbrev main_c_21 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S6000000x2_S6000000x1_0_0 : S6000000x2.Slices ![0, 0] S6000000x1
  shapeCasts_S6000000x1_S6000000 : S6000000x1.ShapeCasts S6000000
  slices_S6000000x2_S6000000x1_0_1 : S6000000x2.Slices ![0, 1] S6000000x1
  bcast_S_S2000000x3 : S_.BroadcastsInDim S2000000x3 (![] : Fin 0 → Fin S2000000x3.rank)
  bcast_S_S6000000 : S_.BroadcastsInDim S6000000 (![] : Fin 0 → Fin S6000000.rank)
  bcast_S6000000_S6000000x1_0 : S6000000.BroadcastsInDim S6000000x1 (![0] : Fin 1 → Fin S6000000x1.rank)
  bcast_S_S2000000x1 : S_.BroadcastsInDim S2000000x1 (![] : Fin 0 → Fin S2000000x1.rank)
  bcast_S_S6000000x1 : S_.BroadcastsInDim S6000000x1 (![] : Fin 0 → Fin S6000000x1.rank)
  inb_S4000x3_S4000x3_0_0 : ∀ a, (![0, 0] : Fin 2 → Nat) a + S4000x3.size a ≤ S4000x3.size a
  h_S4000x3 : 0 < S4000x3.numel
  bitsLt_bf16_f32 : FTy.bits .bf16 < FTy.bits .f32
  shapeCasts_S4000x3_S4000x3 : S4000x3.ShapeCasts S4000x3
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S16x3_S16x3_0_0 : ∀ a, (![0, 0] : Fin 2 → Nat) a + S16x3.size a ≤ S16x3.size a
  h_S16x3 : 0 < S16x3.numel
  transposes_S16x3_p1_0_S3x16 : S16x3.Transposes [1, 0] S3x16
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  broadcasts_S4000x1_S4000x16 : S4000x1.Broadcasts S4000x16
  inb_S3x16_S3x16_0_0 : ∀ a, (![0, 0] : Fin 2 → Nat) a + S3x16.size a ≤ S3x16.size a
  h_S3x16 : 0 < S3x16.numel
  transposes_S3x16_p1_0_S16x3 : S3x16.Transposes [1, 0] S16x3
  inb_S3_S3_0 : ∀ a, (![0] : Fin 1 → Nat) a + S3.size a ≤ S3.size a
  h_S3 : 0 < S3.numel
  shapeCasts_S3_S1x3 : S3.ShapeCasts S1x3
  broadcasts_S1x3_S4000x3 : S1x3.Broadcasts S4000x3
  gather_S2000000x3_S6000000x1_S6000000x3_1_0_n_n_0_1_13_wf : GatherDims.WF S2000000x3 S6000000x1 S6000000x3 [1] [0] [] [0] [] 1 ![1, 3]
  scatter_S2000000x3_S6000000x1_S6000000x3_1_0_0_1_wf : ScatterDims.WF S2000000x3 S6000000x1 S6000000x3 [1] [0] [0] 1
  scatter_S2000000x1_S6000000x1_S6000000x1_1_0_0_1_wf : ScatterDims.WF S2000000x1 S6000000x1 S6000000x1 [1] [0] [0] 1
  dot_S4000x3_S3x16_S4000x16_1_0_0_1_n_n_wf : DotDims.WF S4000x3 S3x16 S4000x16 [1] [0] [0] [1] [] []
  dot_S4000x16_S16x3_S4000x3_1_0_0_1_n_n_wf : DotDims.WF S4000x16 S16x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S2000000x3.size a
  hwx0_0 : ∀ i : grid0.Coords, EltTy.bits .f32 = 32 ∨ (Rect.block (s := S2000000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S2000000x3.size a
  hwx0_1 : ∀ i : grid0.Coords, EltTy.bits .f32 = 32 ∨ (Rect.block (s := S2000000x3) S4000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S2000000x1.size a
  hwx0_2 : ∀ i : grid0.Coords, EltTy.bits .f32 = 32 ∨ (Rect.block (s := S2000000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x3.size a ≤ S16x3.size a
  hwx0_3 : ∀ i : grid0.Coords, EltTy.bits .f32 = 32 ∨ (Rect.block (s := S16x3) S16x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x3.size a ≤ S16x3.size a
  hwx0_5 : ∀ i : grid0.Coords, EltTy.bits .f32 = 32 ∨ (Rect.block (s := S16x3) S16x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x16.size a ≤ S3x16.size a
  hwx0_7 : ∀ i : grid0.Coords, EltTy.bits .f32 = 32 ∨ (Rect.block (s := S3x16) S3x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x16.size a ≤ S3x16.size a
  hwx0_9 : ∀ i : grid0.Coords, EltTy.bits .f32 = 32 ∨ (Rect.block (s := S3x16) S3x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3.size a ≤ S3.size a
  hwx0_10 : ∀ i : grid0.Coords, EltTy.bits .f32 = 32 ∨ (Rect.block (s := S3) S3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x3.size a ≤ S2000000x3.size a
  hwx0_11 : ∀ i : grid0.Coords, EltTy.bits .f32 = 32 ∨ (Rect.block (s := S2000000x3) S4000x3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x3.size a ≤ S2000000x3.size a
  hwx0_12 : ∀ i : grid0.Coords, EltTy.bits .f32 = 32 ∨ (Rect.block (s := S2000000x3) S4000x3.size (cc0_transform_12 i) (hinb0_12 i)).WholeWords (EltTy.packing .f32)

variable [Facts₀]

def gather_S2000000x3_S6000000x1_S6000000x3_1_0_n_n_0_1_13 : GatherDims S2000000x3 S6000000x1 S6000000x3 where
  offsetDims := [1]
  collapsedSliceDims := [0]
  operandBatchingDims := []
  startIndicesBatchingDims := []
  startIndexMap := [0]
  indexVectorDim := 1
  sliceSizes := ![1, 3]
  wf := gather_S2000000x3_S6000000x1_S6000000x3_1_0_n_n_0_1_13_wf
def scatter_S2000000x3_S6000000x1_S6000000x3_1_0_0_1 : ScatterDims S2000000x3 S6000000x1 S6000000x3 where
  updateWindowDims := [1]
  insertedWindowDims := [0]
  scatterDimsToOperandDims := [0]
  indexVectorDim := 1
  wf := scatter_S2000000x3_S6000000x1_S6000000x3_1_0_0_1_wf
def scatter_S2000000x1_S6000000x1_S6000000x1_1_0_0_1 : ScatterDims S2000000x1 S6000000x1 S6000000x1 where
  updateWindowDims := [1]
  insertedWindowDims := [0]
  scatterDimsToOperandDims := [0]
  indexVectorDim := 1
  wf := scatter_S2000000x1_S6000000x1_S6000000x1_1_0_0_1_wf
def dot_S4000x3_S3x16_S4000x16_1_0_0_1_n_n : DotDims S4000x3 S3x16 S4000x16 where
  lhsContracting := [1]
  rhsContracting := [0]
  lhsNonContracting := [0]
  rhsNonContracting := [1]
  lhsBatch := []
  rhsBatch := []
  wf := dot_S4000x3_S3x16_S4000x16_1_0_0_1_n_n_wf
def dot_S4000x16_S16x3_S4000x3_1_0_0_1_n_n : DotDims S4000x16 S16x3 S4000x3 where
  lhsContracting := [1]
  rhsContracting := [0]
  lhsNonContracting := [0]
  rhsNonContracting := [1]
  lhsBatch := []
  rhsBatch := []
  wf := dot_S4000x16_S16x3_S4000x3_1_0_0_1_n_n_wf

abbrev win0_0 : Pipeline.Window sig grid0 :=
  Pipeline.Window.ofSpec (Memref.whole main_arg0) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S16x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S3x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S3x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v50_0) S4000x3.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v50_1) S4000x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S6000000x2 : Shape := ⟨2, ![6000000, 2]⟩
abbrev S16x3 : Shape := ⟨2, ![16, 3]⟩
abbrev S16 : Shape := ⟨1, ![16]⟩
abbrev S3x16 : Shape := ⟨2, ![3, 16]⟩
abbrev S3 : Shape := ⟨1, ![3]⟩
abbrev S2000000x16 : Shape := ⟨2, ![2000000, 16]⟩
abbrev S1x16 : Shape := ⟨2, ![1, 16]⟩
abbrev S6000000x1 : Shape := ⟨2, ![6000000, 1]⟩
abbrev S6000000 : Shape := ⟨1, ![6000000]⟩
abbrev S_ : Shape := ⟨0, ![]⟩
abbrev S6000000x16 : Shape := ⟨2, ![6000000, 16]⟩
abbrev S1x3 : Shape := ⟨2, ![1, 3]⟩
abbrev S6000000x3 : Shape := ⟨2, ![6000000, 3]⟩

abbrev nBuf : Space → Nat
  | .hbm => 119
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S6000000x2, .i32⟩
  | .hbm, ⟨2, _⟩ => ⟨S16x3, .f32⟩
  | .hbm, ⟨3, _⟩ => ⟨S16, .f32⟩
  | .hbm, ⟨4, _⟩ => ⟨S16x3, .f32⟩
  | .hbm, ⟨5, _⟩ => ⟨S16, .f32⟩
  | .hbm, ⟨6, _⟩ => ⟨S3x16, .f32⟩
  | .hbm, ⟨7, _⟩ => ⟨S3, .f32⟩
  | .hbm, ⟨8, _⟩ => ⟨S3x16, .f32⟩
  | .hbm, ⟨9, _⟩ => ⟨S3, .f32⟩
  | .hbm, ⟨10, _⟩ => ⟨S3x16, .f32⟩
  | .hbm, ⟨11, _⟩ => ⟨S2000000x16, .f32⟩
  | .hbm, ⟨12, _⟩ => ⟨S1x16, .f32⟩
  | .hbm, ⟨13, _⟩ => ⟨S2000000x16, .f32⟩
  | .hbm, ⟨14, _⟩ => ⟨S2000000x16, .f32⟩
  | .hbm, ⟨15, _⟩ => ⟨S3x16, .f32⟩
  | .hbm, ⟨16, _⟩ => ⟨S2000000x16, .f32⟩
  | .hbm, ⟨17, _⟩ => ⟨S1x16, .f32⟩
  | .hbm, ⟨18, _⟩ => ⟨S2000000x16, .f32⟩
  | .hbm, ⟨19, _⟩ => ⟨S2000000x16, .f32⟩
  | .hbm, ⟨20, _⟩ => ⟨S6000000x1, .i32⟩
  | .hbm, ⟨21, _⟩ => ⟨S6000000, .i32⟩
  | .hbm, ⟨22, _⟩ => ⟨S6000000x1, .i32⟩
  | .hbm, ⟨23, _⟩ => ⟨S6000000, .i32⟩
  | .hbm, ⟨24, _⟩ => ⟨S_, .f32⟩
  | .hbm, ⟨25, _⟩ => ⟨S2000000x16, .f32⟩
  | .hbm, ⟨26, _⟩ => ⟨S_, .i32⟩
  | .hbm, ⟨27, _⟩ => ⟨S6000000, .i32⟩
  | .hbm, ⟨28, _⟩ => ⟨S6000000, .i1⟩
  | .hbm, ⟨29, _⟩ => ⟨S_, .i32⟩
  | .hbm, ⟨30, _⟩ => ⟨S6000000, .i32⟩
  | .hbm, ⟨31, _⟩ => ⟨S6000000, .i32⟩
  | .hbm, ⟨32, _⟩ => ⟨S6000000, .i32⟩
  | .hbm, ⟨33, _⟩ => ⟨S6000000x1, .i32⟩
  | .hbm, ⟨34, _⟩ => ⟨S6000000x16, .f32⟩
  | .hbm, ⟨35, _⟩ => ⟨S_, .i32⟩
  | .hbm, ⟨36, _⟩ => ⟨S6000000, .i32⟩
  | .hbm, ⟨37, _⟩ => ⟨S6000000, .i1⟩
  | .hbm, ⟨38, _⟩ => ⟨S_, .i32⟩
  | .hbm, ⟨39, _⟩ => ⟨S6000000, .i32⟩
  | .hbm, ⟨40, _⟩ => ⟨S6000000, .i32⟩
  | .hbm, ⟨41, _⟩ => ⟨S6000000, .i32⟩
  | .hbm, ⟨42, _⟩ => ⟨S6000000x1, .i32⟩
  | .hbm, ⟨43, _⟩ => ⟨S2000000x16, .f32⟩
  | .hbm, ⟨44, _⟩ => ⟨S_, .i32⟩
  | .hbm, ⟨45, _⟩ => ⟨S6000000, .i32⟩
  | .hbm, ⟨46, _⟩ => ⟨S6000000, .i1⟩
  | .hbm, ⟨47, _⟩ => ⟨S_, .i32⟩
  | .hbm, ⟨48, _⟩ => ⟨S6000000, .i32⟩
  | .hbm, ⟨49, _⟩ => ⟨S6000000, .i32⟩
  | .hbm, ⟨50, _⟩ => ⟨S6000000, .i32⟩
  | .hbm, ⟨51, _⟩ => ⟨S6000000x1, .i32⟩
  | .hbm, ⟨52, _⟩ => ⟨S6000000x16, .f32⟩
  | .hbm, ⟨53, _⟩ => ⟨S_, .i32⟩
  | .hbm, ⟨54, _⟩ => ⟨S6000000, .i32⟩
  | .hbm, ⟨55, _⟩ => ⟨S6000000, .i1⟩
  | .hbm, ⟨56, _⟩ => ⟨S_, .i32⟩
  | .hbm, ⟨57, _⟩ => ⟨S6000000, .i32⟩
  | .hbm, ⟨58, _⟩ => ⟨S6000000, .i32⟩
  | .hbm, ⟨59, _⟩ => ⟨S6000000, .i32⟩
  | .hbm, ⟨60, _⟩ => ⟨S6000000x1, .i32⟩
  | .hbm, ⟨61, _⟩ => ⟨S2000000x16, .f32⟩
  | .hbm, ⟨62, _⟩ => ⟨S2000000x16, .f32⟩
  | .hbm, ⟨63, _⟩ => ⟨S_, .f32⟩
  | .hbm, ⟨64, _⟩ => ⟨S2000000x16, .f32⟩
  | .hbm, ⟨65, _⟩ => ⟨S2000000x16, .f32⟩
  | .hbm, ⟨66, _⟩ => ⟨S16x3, .f32⟩
  | .hbm, ⟨67, _⟩ => ⟨S2000000x3, .f32⟩
  | .hbm, ⟨68, _⟩ => ⟨S1x3, .f32⟩
  | .hbm, ⟨69, _⟩ => ⟨S2000000x3, .f32⟩
  | .hbm, ⟨70, _⟩ => ⟨S2000000x3, .f32⟩
  | .hbm, ⟨71, _⟩ => ⟨S16x3, .f32⟩
  | .hbm, ⟨72, _⟩ => ⟨S2000000x3, .f32⟩
  | .hbm, ⟨73, _⟩ => ⟨S1x3, .f32⟩
  | .hbm, ⟨74, _⟩ => ⟨S2000000x3, .f32⟩
  | .hbm, ⟨75, _⟩ => ⟨S2000000x3, .f32⟩
  | .hbm, ⟨76, _⟩ => ⟨S6000000x1, .i32⟩
  | .hbm, ⟨77, _⟩ => ⟨S6000000, .i32⟩
  | .hbm, ⟨78, _⟩ => ⟨S6000000x1, .i32⟩
  | .hbm, ⟨79, _⟩ => ⟨S6000000, .i32⟩
  | .hbm, ⟨80, _⟩ => ⟨S_, .f32⟩
  | .hbm, ⟨81, _⟩ => ⟨S2000000x3, .f32⟩
  | .hbm, ⟨82, _⟩ => ⟨S_, .i32⟩
  | .hbm, ⟨83, _⟩ => ⟨S6000000, .i32⟩
  | .hbm, ⟨84, _⟩ => ⟨S6000000, .i1⟩
  | .hbm, ⟨85, _⟩ => ⟨S_, .i32⟩
  | .hbm, ⟨86, _⟩ => ⟨S6000000, .i32⟩
  | .hbm, ⟨87, _⟩ => ⟨S6000000, .i32⟩
  | .hbm, ⟨88, _⟩ => ⟨S6000000, .i32⟩
  | .hbm, ⟨89, _⟩ => ⟨S6000000x1, .i32⟩
  | .hbm, ⟨90, _⟩ => ⟨S6000000x3, .f32⟩
  | .hbm, ⟨91, _⟩ => ⟨S_, .i32⟩
  | .hbm, ⟨92, _⟩ => ⟨S6000000, .i32⟩
  | .hbm, ⟨93, _⟩ => ⟨S6000000, .i1⟩
  | .hbm, ⟨94, _⟩ => ⟨S_, .i32⟩
  | .hbm, ⟨95, _⟩ => ⟨S6000000, .i32⟩
  | .hbm, ⟨96, _⟩ => ⟨S6000000, .i32⟩
  | .hbm, ⟨97, _⟩ => ⟨S6000000, .i32⟩
  | .hbm, ⟨98, _⟩ => ⟨S6000000x1, .i32⟩
  | .hbm, ⟨99, _⟩ => ⟨S2000000x3, .f32⟩
  | .hbm, ⟨100, _⟩ => ⟨S_, .i32⟩
  | .hbm, ⟨101, _⟩ => ⟨S6000000, .i32⟩
  | .hbm, ⟨102, _⟩ => ⟨S6000000, .i1⟩
  | .hbm, ⟨103, _⟩ => ⟨S_, .i32⟩
  | .hbm, ⟨104, _⟩ => ⟨S6000000, .i32⟩
  | .hbm, ⟨105, _⟩ => ⟨S6000000, .i32⟩
  | .hbm, ⟨106, _⟩ => ⟨S6000000, .i32⟩
  | .hbm, ⟨107, _⟩ => ⟨S6000000x1, .i32⟩
  | .hbm, ⟨108, _⟩ => ⟨S6000000x3, .f32⟩
  | .hbm, ⟨109, _⟩ => ⟨S_, .i32⟩
  | .hbm, ⟨110, _⟩ => ⟨S6000000, .i32⟩
  | .hbm, ⟨111, _⟩ => ⟨S6000000, .i1⟩
  | .hbm, ⟨112, _⟩ => ⟨S_, .i32⟩
  | .hbm, ⟨113, _⟩ => ⟨S6000000, .i32⟩
  | .hbm, ⟨114, _⟩ => ⟨S6000000, .i32⟩
  | .hbm, ⟨115, _⟩ => ⟨S6000000, .i32⟩
  | .hbm, ⟨116, _⟩ => ⟨S6000000x1, .i32⟩
  | .hbm, ⟨117, _⟩ => ⟨S2000000x3, .f32⟩
  | .hbm, ⟨118, _⟩ => ⟨S2000000x3, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_c_8 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_10 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_14 : Ref sig .tc := ⟨.hbm, 109, rfl⟩
abbrev main_v81 : Ref sig .tc := ⟨.hbm, 110, rfl⟩
abbrev main_v82 : Ref sig .tc := ⟨.hbm, 111, rfl⟩
abbrev main_c_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]

class Facts₀ : Prop where
  transposes_S16x3_S3x16_1_0 : S16x3.Transposes [1, 0] S3x16
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  slices_S6000000x2_S6000000x1_0_0 : S6000000x2.Slices ![0, 0] S6000000x1
  shapeCasts_S6000000x1_S6000000 : S6000000x1.ShapeCasts S6000000
  slices_S6000000x2_S6000000x1_0_1 : S6000000x2.Slices ![0, 1] S6000000x1
  bcast_S_S2000000x16 : S_.BroadcastsInDim S2000000x16 (![] : Fin 0 → Fin S2000000x16.rank)
  bcast_S_S6000000 : S_.BroadcastsInDim S6000000 (![] : Fin 0 → Fin S6000000.rank)
  bcast_S6000000_S6000000x1_0 : S6000000.BroadcastsInDim S6000000x1 (![0] : Fin 1 → Fin S6000000x1.rank)
  transposes_S3x16_S16x3_1_0 : S3x16.Transposes [1, 0] S16x3
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  bcast_S_S2000000x3 : S_.BroadcastsInDim S2000000x3 (![] : Fin 0 → Fin S2000000x3.rank)
  dot_S2000000x3_S3x16_S2000000x16_1_0_0_1_n_n_wf : DotDims.WF S2000000x3 S3x16 S2000000x16 [1] [0] [0] [1] [] []
  gather_S2000000x16_S6000000x1_S6000000x16_1_0_n_n_0_1_116_wf : GatherDims.WF S2000000x16 S6000000x1 S6000000x16 [1] [0] [] [0] [] 1 ![1, 16]
  scatter_S2000000x16_S6000000x1_S6000000x16_1_0_0_1_wf : ScatterDims.WF S2000000x16 S6000000x1 S6000000x16 [1] [0] [0] 1
  dot_S2000000x16_S16x3_S2000000x3_1_0_0_1_n_n_wf : DotDims.WF S2000000x16 S16x3 S2000000x3 [1] [0] [0] [1] [] []
  gather_S2000000x3_S6000000x1_S6000000x3_1_0_n_n_0_1_13_wf : GatherDims.WF S2000000x3 S6000000x1 S6000000x3 [1] [0] [] [0] [] 1 ![1, 3]
  scatter_S2000000x3_S6000000x1_S6000000x3_1_0_0_1_wf : ScatterDims.WF S2000000x3 S6000000x1 S6000000x3 [1] [0] [0] 1

variable [Facts₀]

def dot_S2000000x3_S3x16_S2000000x16_1_0_0_1_n_n : DotDims S2000000x3 S3x16 S2000000x16 where
  lhsContracting := [1]
  rhsContracting := [0]
  lhsNonContracting := [0]
  rhsNonContracting := [1]
  lhsBatch := []
  rhsBatch := []
  wf := dot_S2000000x3_S3x16_S2000000x16_1_0_0_1_n_n_wf
def gather_S2000000x16_S6000000x1_S6000000x16_1_0_n_n_0_1_116 : GatherDims S2000000x16 S6000000x1 S6000000x16 where
  offsetDims := [1]
  collapsedSliceDims := [0]
  operandBatchingDims := []
  startIndicesBatchingDims := []
  startIndexMap := [0]
  indexVectorDim := 1
  sliceSizes := ![1, 16]
  wf := gather_S2000000x16_S6000000x1_S6000000x16_1_0_n_n_0_1_116_wf
def scatter_S2000000x16_S6000000x1_S6000000x16_1_0_0_1 : ScatterDims S2000000x16 S6000000x1 S6000000x16 where
  updateWindowDims := [1]
  insertedWindowDims := [0]
  scatterDimsToOperandDims := [0]
  indexVectorDim := 1
  wf := scatter_S2000000x16_S6000000x1_S6000000x16_1_0_0_1_wf
def dot_S2000000x16_S16x3_S2000000x3_1_0_0_1_n_n : DotDims S2000000x16 S16x3 S2000000x3 where
  lhsContracting := [1]
  rhsContracting := [0]
  lhsNonContracting := [0]
  rhsNonContracting := [1]
  lhsBatch := []
  rhsBatch := []
  wf := dot_S2000000x16_S16x3_S2000000x3_1_0_0_1_n_n_wf
def gather_S2000000x3_S6000000x1_S6000000x3_1_0_n_n_0_1_13 : GatherDims S2000000x3 S6000000x1 S6000000x3 where
  offsetDims := [1]
  collapsedSliceDims := [0]
  operandBatchingDims := []
  startIndicesBatchingDims := []
  startIndexMap := [0]
  indexVectorDim := 1
  sliceSizes := ![1, 3]
  wf := gather_S2000000x3_S6000000x1_S6000000x3_1_0_n_n_0_1_13_wf
def scatter_S2000000x3_S6000000x1_S6000000x3_1_0_0_1 : ScatterDims S2000000x3 S6000000x1 S6000000x3 where
  updateWindowDims := [1]
  insertedWindowDims := [0]
  scatterDimsToOperandDims := [0]
  indexVectorDim := 1
  wf := scatter_S2000000x3_S6000000x1_S6000000x3_1_0_0_1_wf

class Facts : Prop extends Facts₀ where

variable [Facts]
-- ==== Proof.LibNodeScatter.lean ====
/-
  Rows of a node-by-feature array gathered, and accumulated, along the node axis, read at an index.

  The operand is an array over (node, feature) of extents `N, D`; the indices are a column of `M` words, each
  naming a node; the other array is over (index, feature) of extents `M, D`.
  * An ACCUMULATING SCATTER adds update row `e` to operand row `idx[e]` (the word read signed; a row outside
    `[0, N)` is dropped). On the extended reals entry `(n, d)` of the result is the operand's entry plus the sum,
    over the rows `e` with `idx[e] = n`, of update entry `(e, d)` (`hostScatterAdd_nodes_apply`), because update
    entry `(e, d)` lands exactly at `(idx[e], d)` (`resultIdx?_nodes`).
  * A GATHER reads operand row `idx[e]`, the word read signed and clamped into `[0, N − 1]`, into result row `e`
    (`gather_nodes_apply`).
  Neither statement depends on the feature extent `D`: the same rows are selected whatever the width of a row.
-/
import Idealize.ShloMosaic.PureOps.Ideal
import Idealize.ShloMosaic.Lib.ValueIdx

noncomputable section
open scoped BigOperators
namespace Cert.LibNodes

open Idealize.ShloMosaic Idealize.ShloMosaic.ValueIdx

/-- The dimension numbers of a scatter of whole rows into a node-by-feature array: update axis 1 is the window
    axis, operand axis 0 is the inserted one and the one the index names. -/
abbrev nodeScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

/-- On the node axis an update's start is its row's index word, read signed. -/
theorem start0 (j : (⟨2, ![M, D]⟩ : Shape).Idx) (idx : IVec ⟨2, ![M, 1]⟩ w) :
    (nodeScatterDims N D M wf).start j idx 0 = (idx (ix2 (j 0) (0 : Fin 1))).toInt := by
  unfold ScatterDims.start
  rw [dif_pos (show (0 : Fin 2) ∈ (nodeScatterDims N D M wf).scatterDimsToOperandDims from List.mem_singleton.mpr rfl)]
  congr 2
  funext b; refine Fin.ext ?_
  match b with
  | ⟨0, _⟩ => rfl
  | ⟨1, _⟩ => rfl

/-- Update entry `(e, d)` lands at `(n, d')` exactly when the feature agrees and row `e`'s index word, read
    signed, is `n`. -/
theorem resultIdx?_nodes (e : Fin M) (d : Fin D) (idx : IVec ⟨2, ![M, 1]⟩ w) (n : Fin N) (d' : Fin D) :
    (nodeScatterDims N D M wf).resultIdx? (ix2 e d) idx = some (ix2 n d') ↔
      d' = d ∧ (idx (ix2 e (0 : Fin 1))).toInt = (n.val : ℤ) := by
  have hs : (nodeScatterDims N D M wf).start (ix2 e d) idx 0 = (idx (ix2 e (0 : Fin 1))).toInt := start0 wf _ idx
  unfold ScatterDims.resultIdx?
  split
  · next h =>
    rw [Option.some.injEq]
    constructor
    · intro hf
      have h0 := congrArg (fun f => (f 0).val) hf
      have h1 := congrArg (fun f => (f 1).val) hf
      have g0 := (h 0).1
      simp only at h0 h1
      refine ⟨Fin.ext ?_, ?_⟩
      · have : ((0 : ℤ) + ((d.val : ℕ) : ℤ)).toNat = d'.val := h1
        omega
      · have e1 : ((nodeScatterDims N D M wf).start (ix2 e d) idx 0 + ((0 : ℕ) : ℤ)).toNat = n.val := h0
        have e2 : 0 ≤ (nodeScatterDims N D M wf).start (ix2 e d) idx 0 + ((0 : ℕ) : ℤ) := g0
        rw [hs] at e1 e2
        omega
    · rintro ⟨rfl, hx⟩
      funext a
      refine Fin.ext ?_
      match a with
      | ⟨0, _⟩ =>
        show ((nodeScatterDims N D M wf).start (ix2 e d') idx 0 + ((0 : ℕ) : ℤ)).toNat = n.val
        rw [hs, hx]; omega
      | ⟨1, _⟩ => show ((0 : ℤ) + ((d'.val : ℕ) : ℤ)).toNat = d'.val; omega
  · next h =>
    constructor
    · intro hf; exact absurd hf (by simp)
    · rintro ⟨rfl, hx⟩
      exfalso; apply h
      intro a
      match a with
      | ⟨0, _⟩ =>
        show 0 ≤ (nodeScatterDims N D M wf).start (ix2 e d') idx 0 + ((0 : ℕ) : ℤ)
          ∧ (nodeScatterDims N D M wf).start (ix2 e d') idx 0 + ((0 : ℕ) : ℤ) < ((N : ℕ) : ℤ)
        rw [hs, hx]; have := n.isLt; omega
      | ⟨1, _⟩ =>
        show 0 ≤ (0 : ℤ) + ((d'.val : ℕ) : ℤ) ∧ (0 : ℤ) + ((d'.val : ℕ) : ℤ) < ((D : ℕ) : ℤ)
        have := d'.isLt; omega

/-- The accumulating row scatter read at `(n, d)`: the operand's entry plus the update entries `(e, d)` of the
    rows `e` whose index word names node `n`. -/
theorem hostScatterAdd_nodes_apply (x : (⟨2, ![N, D]⟩ : Shape).Idx → EReal) (idx : IVec ⟨2, ![M, 1]⟩ w)
    (upd : (⟨2, ![M, D]⟩ : Shape).Idx → EReal) (n : Fin N) (d : Fin D) :
    Ideal.hostScatterAdd (nodeScatterDims N D M wf) x idx upd (ix2 n d)
      = x (ix2 n d) + ∑ e : Fin M, if (idx (ix2 e (0 : Fin 1))).toInt = (n.val : ℤ) then upd (ix2 e d) else 0 := by
  unfold Ideal.hostScatterAdd
  refine congrArg (x (ix2 n d) + ·) ?_
  rw [← Finset.sum_filter]
  refine Finset.sum_nbij' (fun j => (j 0 : Fin M)) (fun e => ix2 e d) ?_ ?_ ?_ ?_ ?_
  · intro j hj
    have hj' := (Finset.mem_filter.mp hj).2
    rw [eq_ix2 j] at hj'
    exact Finset.mem_filter.mpr ⟨Finset.mem_univ _, ((resultIdx?_nodes wf _ _ idx n d).mp hj').2⟩
  · intro e he
    have he' := (Finset.mem_filter.mp he).2
    exact Finset.mem_filter.mpr ⟨Finset.mem_univ _, (resultIdx?_nodes wf e d idx n d).mpr ⟨rfl, he'⟩⟩
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact hjj.symm
  · intro e _; rfl
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact congrArg upd hjj

/-- The dimension numbers of a gather of whole rows of a node-by-feature array: a column of `M` start indices
    naming nodes, the result over (index, feature). -/
abbrev nodeGatherDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The node a start-index word names: read signed and clamped into `[0, N − 1]`. -/
def nodeOf (N : Nat) (hN : 0 < N) {w : Nat} (x : BitVec w) : Fin N := ⟨min x.toInt.toNat (N - 1), by omega⟩

/-- The row gather read at `(e, d)`: the operand at the row `idx[e]` names. -/
theorem gather_nodes_apply {α : Type} (hN : 0 < N)
    (wfg : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (nodeGatherDims N D M wfg) x idx (ix2 e d)
      = x (ix2 (nodeOf N hN (idx (ix2 e (0 : Fin 1)))) d) := by
  unfold Host.gather
  refine congrArg x (funext fun a => Fin.ext ?_)
  have hst : (nodeGatherDims N D M wfg).start (ix2 e d) idx 0 = min (idx (ix2 e (0 : Fin 1))).toInt.toNat (N - 1) := by
    unfold GatherDims.start
    rw [dif_pos (show (0 : Fin 2) ∈ (nodeGatherDims N D M wfg).startIndexMap from List.mem_singleton.mpr rfl)]
    have hsi : (nodeGatherDims N D M wfg).siIdx (ix2 e d) ⟨List.idxOf (0 : Fin 2) (nodeGatherDims N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (nodeGatherDims N D M wfg).start (ix2 e d) idx 0 + (nodeGatherDims N D M wfg).batchCoord (ix2 e d) 0
      + (nodeGatherDims N D M wfg).offCoord (ix2 e d) 0 = min (idx (ix2 e (0 : Fin 1))).toInt.toNat (N - 1)
    have h2 : (nodeGatherDims N D M wfg).batchCoord (ix2 e d) 0 = 0 := rfl
    have h3 : (nodeGatherDims N D M wfg).offCoord (ix2 e d) 0 = 0 := rfl
    rw [hst, h2, h3]; rfl
  | ⟨1, _⟩ =>
    show (nodeGatherDims N D M wfg).start (ix2 e d) idx 1 + (nodeGatherDims N D M wfg).batchCoord (ix2 e d) 1
      + (nodeGatherDims N D M wfg).offCoord (ix2 e d) 1 = d.val
    have h1 : (nodeGatherDims N D M wfg).start (ix2 e d) idx 1 = 0 := rfl
    have h2 : (nodeGatherDims N D M wfg).batchCoord (ix2 e d) 1 = 0 := rfl
    have h3 : (nodeGatherDims N D M wfg).offCoord (ix2 e d) 1 = d.val := rfl
    rw [h1, h2, h3]; omega

end Cert.LibNodes
end
-- ==== Proof.LibGraphConv.lean ====
/-
  Two graph-convolution layers on an undirected edge list, entry by entry on the extended reals.

  A node-by-feature array X over (node, feature) of extents N, D; two columns of E index words, s and t, naming the
  two ends of each edge. Edge e sends the row of its t-end to its s-end and the row of its s-end to its t-end:
  `nbr z X` at (n, d) is z (n, d), plus the entries (node (t e), d) of X over the edges e whose s-word is n, plus
  the entries (node (s e), d) of X over the edges e whose t-word is n — a word read signed when it receives (a word
  outside the node range receives nothing) and read signed and clamped into the node range when it sends.
  `cnt` counts those edges: the same two sums of ones from zero.

  `lin X W b` is the affine map X · Wᵀ + b with the weight stored output-major, W over (output, input).

  One layer of the convolution is  lin X W0 b0 + nbr 0 (lin X W1 b1)  (project every node, then pass the projected rows
  along the edges). Because the projection is affine the neighbour term is also
      (nbr 0 X) · W1ᵀ + cnt · b1,
  the raw rows passed along the edges first and projected once per node, the bias once per received edge
  (`nbrLin`): this holds for real entries (`nbr_lin`, in LibGraphConvLaw).
-/
import Idealize.ShloMosaic.PureOps.Ideal
import Idealize.ShloMosaic.Lib.ValueIdx
import proofs.«135806_j90297392431231_2_alg».proof.Proof.LibNodeScatter

noncomputable section
open scoped BigOperators
namespace Cert.Graph

open Idealize.ShloMosaic Idealize.ShloMosaic.ValueIdx Cert.LibNodes

variable {N E w : Nat}

/-- One end of every edge as a column of node words: column j of the E-by-2 edge list, a negative word moved up by N
    (a negative index counts from the end of the node axis). -/
def endCol (N E j : Nat) (edges : IVec ⟨2, ![E, 2]⟩ 32)
    (hsl : (⟨2, ![E, 2]⟩ : Shape).Slices ![0, j] ⟨2, ![E, 1]⟩) (hsc : (⟨2, ![E, 1]⟩ : Shape).ShapeCasts ⟨1, ![E]⟩)
    (hb0 : (⟨0, ![]⟩ : Shape).BroadcastsInDim ⟨1, ![E]⟩ ![]) (hb1 : (⟨1, ![E]⟩ : Shape).BroadcastsInDim ⟨2, ![E, 1]⟩ ![0]) :
    IVec ⟨2, ![E, 1]⟩ 32 :=
  broadcastInDim ⟨2, ![E, 1]⟩ ![0] hb1
    (select (cmpi .slt (shapeCast ⟨1, ![E]⟩ (extractStridedSlice ⟨2, ![E, 1]⟩ ![0, j] edges hsl) hsc)
              (broadcastInDim ⟨1, ![E]⟩ ![] hb0 (constantI ⟨0, ![]⟩ 32 0#32)))
      (addi (shapeCast ⟨1, ![E]⟩ (extractStridedSlice ⟨2, ![E, 1]⟩ ![0, j] edges hsl) hsc)
              (broadcastInDim ⟨1, ![E]⟩ ![] hb0 (constantI ⟨0, ![]⟩ 32 (BitVec.ofNat 32 N))))
      (shapeCast ⟨1, ![E]⟩ (extractStridedSlice ⟨2, ![E, 1]⟩ ![0, j] edges hsl) hsc))

/-- The rows passed along the edges, both ways, accumulated onto z. -/
def nbr {D : Nat} (hN : 0 < N) (s t : IVec ⟨2, ![E, 1]⟩ w) (z X : (⟨2, ![N, D]⟩ : Shape).Idx → EReal) :
    (⟨2, ![N, D]⟩ : Shape).Idx → EReal := fun i =>
  (z i + ∑ e : Fin E, if (s (ix2 e (0 : Fin 1))).toInt = ((i 0).val : ℤ)
            then X (ix2 (nodeOf N hN (t (ix2 e (0 : Fin 1)))) (i 1)) else 0)
    + ∑ e : Fin E, if (t (ix2 e (0 : Fin 1))).toInt = ((i 0).val : ℤ)
            then X (ix2 (nodeOf N hN (s (ix2 e (0 : Fin 1)))) (i 1)) else 0

/-- The number of edge ends at each node, as a column: the same two sums, of ones, from zero. -/
def cnt (s t : IVec ⟨2, ![E, 1]⟩ w) : (⟨2, ![N, 1]⟩ : Shape).Idx → EReal := fun i =>
  ((0 : EReal) + ∑ e : Fin E, if (s (ix2 e (0 : Fin 1))).toInt = ((i 0).val : ℤ) then (1 : EReal) else 0)
    + ∑ e : Fin E, if (t (ix2 e (0 : Fin 1))).toInt = ((i 0).val : ℤ) then (1 : EReal) else 0

/-- The affine map X · Wᵀ + b, the weight over (output, input). -/
def lin {K J : Nat} (X : (⟨2, ![N, K]⟩ : Shape).Idx → EReal) (W : (⟨2, ![J, K]⟩ : Shape).Idx → EReal)
    (b : (⟨1, ![J]⟩ : Shape).Idx → EReal) : (⟨2, ![N, J]⟩ : Shape).Idx → EReal := fun i =>
  (∑ k : Fin K, X (ix2 (i 0) k) * W (ix2 (i 1) k)) + b (ix1 (i 1))

/-- The neighbour term of a layer computed from the raw rows: A · Wᵀ + c · b, with A the accumulated raw rows and c
    the column of edge counts. -/
def nbrLin {K J : Nat} (A : (⟨2, ![N, K]⟩ : Shape).Idx → EReal) (c : (⟨2, ![N, 1]⟩ : Shape).Idx → EReal)
    (W : (⟨2, ![J, K]⟩ : Shape).Idx → EReal) (b : (⟨1, ![J]⟩ : Shape).Idx → EReal) :
    (⟨2, ![N, J]⟩ : Shape).Idx → EReal := fun i =>
  (∑ k : Fin K, A (ix2 (i 0) k) * W (ix2 (i 1) k)) + c (ix2 (i 0) (0 : Fin 1)) * b (ix1 (i 1))

/-- A rectified layer from a node term and a neighbour term computed from accumulated raw rows A and a count
    column c: max (X · W0ᵀ + b0 + (A · W1ᵀ + c · b1), 0). Row n of the result reads row n of X, of A and of c only. -/
def hiddenOf {K J : Nat} (X A : (⟨2, ![N, K]⟩ : Shape).Idx → EReal) (c : (⟨2, ![N, 1]⟩ : Shape).Idx → EReal)
    (W0 : (⟨2, ![J, K]⟩ : Shape).Idx → EReal) (b0 : (⟨1, ![J]⟩ : Shape).Idx → EReal)
    (W1 : (⟨2, ![J, K]⟩ : Shape).Idx → EReal) (b1 : (⟨1, ![J]⟩ : Shape).Idx → EReal) :
    (⟨2, ![N, J]⟩ : Shape).Idx → EReal := fun i =>
  max (lin X W0 b0 i + nbrLin A c W1 b1 i) 0

/-- The hidden layer, the reference's way: project, pass along the edges, add, rectify. -/
def hiddenRef {K J : Nat} (hN : 0 < N) (s t : IVec ⟨2, ![E, 1]⟩ w) (X : (⟨2, ![N, K]⟩ : Shape).Idx → EReal)
    (W0 : (⟨2, ![J, K]⟩ : Shape).Idx → EReal) (b0 : (⟨1, ![J]⟩ : Shape).Idx → EReal)
    (W1 : (⟨2, ![J, K]⟩ : Shape).Idx → EReal) (b1 : (⟨1, ![J]⟩ : Shape).Idx → EReal) :
    (⟨2, ![N, J]⟩ : Shape).Idx → EReal := fun i =>
  max (lin X W0 b0 i + nbr hN s t (fun _ => 0) (lin X W1 b1) i) 0

/-- The hidden layer, the kernel's way: pass the raw rows along the edges, project once per node, rectify. -/
def hiddenKer {K J : Nat} (hN : 0 < N) (s t : IVec ⟨2, ![E, 1]⟩ w) (X : (⟨2, ![N, K]⟩ : Shape).Idx → EReal)
    (W0 : (⟨2, ![J, K]⟩ : Shape).Idx → EReal) (b0 : (⟨1, ![J]⟩ : Shape).Idx → EReal)
    (W1 : (⟨2, ![J, K]⟩ : Shape).Idx → EReal) (b1 : (⟨1, ![J]⟩ : Shape).Idx → EReal) :
    (⟨2, ![N, J]⟩ : Shape).Idx → EReal :=
  hiddenOf X (nbr hN s t (fun _ => 0) X) (cnt s t) W0 b0 W1 b1

/-- The output layer, the reference's way: the node term plus the neighbour term accumulated from zero. -/
def outRef {J L : Nat} (hN : 0 < N) (s t : IVec ⟨2, ![E, 1]⟩ w) (H : (⟨2, ![N, J]⟩ : Shape).Idx → EReal)
    (W0 : (⟨2, ![L, J]⟩ : Shape).Idx → EReal) (b0 : (⟨1, ![L]⟩ : Shape).Idx → EReal)
    (W1 : (⟨2, ![L, J]⟩ : Shape).Idx → EReal) (b1 : (⟨1, ![L]⟩ : Shape).Idx → EReal) :
    (⟨2, ![N, L]⟩ : Shape).Idx → EReal := fun i =>
  lin H W0 b0 i + nbr hN s t (fun _ => 0) (lin H W1 b1) i

/-- The output layer, the kernel's way: the neighbour term accumulated onto the node term. -/
def outKer {J L : Nat} (hN : 0 < N) (s t : IVec ⟨2, ![E, 1]⟩ w) (H : (⟨2, ![N, J]⟩ : Shape).Idx → EReal)
    (W0 : (⟨2, ![L, J]⟩ : Shape).Idx → EReal) (b0 : (⟨1, ![L]⟩ : Shape).Idx → EReal)
    (W1 : (⟨2, ![L, J]⟩ : Shape).Idx → EReal) (b1 : (⟨1, ![L]⟩ : Shape).Idx → EReal) :
    (⟨2, ![N, L]⟩ : Shape).Idx → EReal :=
  nbr hN s t (lin H W0 b0) (lin H W1 b1)

end Cert.Graph
end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.LibVecMatAssoc.lean ====
/-
  A row vector through two matrix products, on the extended reals.

  Applying a weighted sum of rows and then a linear map gives the same as applying the linear map to each row
  and then taking the weighted sum:  (a . X) . w  =  a . (X . w),  that is
      sum_e (sum_n a_n x_{n,e}) w_e  =  sum_n a_n (sum_e x_{n,e} w_e).
  This is distributivity plus an exchange of two finite sums. On the extended reals distributivity fails at the
  infinities, so the statement asks every number involved to be a real; it is then the real identity, carried
  through the coercion.
-/
import Idealize.ShloMosaic.PureOps.Ideal

noncomputable section

namespace Cert.Lib.VecMatAssoc

open Finset

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals, read in the extended reals, is the coercion of the real sum. -/
theorem sum_mul_coe {ι : Type*} (s : Finset ι) (f g : ι → EReal) (fr gr : ι → ℝ)
    (hf : ∀ i, f i = (fr i : EReal)) (hg : ∀ i, g i = (gr i : EReal)) :
    ∑ i ∈ s, f i * g i = ((∑ i ∈ s, fr i * gr i : ℝ) : EReal) := by
  rw [coe_sum]
  exact Finset.sum_congr rfl fun i _ => by rw [hf i, hg i, EReal.coe_mul]

/-- (a . X) . w = a . (X . w) for real-valued a, X, w. -/
theorem vec_mat_assoc {N E : Type*} [Fintype N] [Fintype E] (a : N → EReal) (x : N → E → EReal) (w : E → EReal)
    (ha : ∀ n, ∃ r : ℝ, a n = (r : EReal)) (hx : ∀ n e, ∃ r : ℝ, x n e = (r : EReal)) (hw : ∀ e, ∃ r : ℝ, w e = (r : EReal)) :
    ∑ e, (∑ n, a n * x n e) * w e = ∑ n, a n * ∑ e, x n e * w e := by
  choose ar har using ha
  choose xr hxr using hx
  choose wr hwr using hw
  have L : ∑ e, (∑ n, a n * x n e) * w e = ((∑ e, (∑ n, ar n * xr n e) * wr e : ℝ) : EReal) :=
    sum_mul_coe _ _ _ (fun e => ∑ n, ar n * xr n e) wr (fun e => sum_mul_coe _ _ _ ar (fun n => xr n e) har (fun n => hxr n e)) hwr
  have R : ∑ n, a n * ∑ e, x n e * w e = ((∑ n, ar n * ∑ e, xr n e * wr e : ℝ) : EReal) :=
    sum_mul_coe _ _ _ ar (fun n => ∑ e, xr n e * wr e) har (fun n => sum_mul_coe _ _ _ (xr n) wr (hxr n) hwr)
  rw [L, R]
  congr 1
  simp only [Finset.sum_mul, Finset.mul_sum]
  rw [Finset.sum_comm]
  exact Finset.sum_congr rfl fun n _ => Finset.sum_congr rfl fun e _ => by ring

end Cert.Lib.VecMatAssoc

end
-- ==== Proof.LibGraphConvLaw.lean ====
/-
  The law that joins the two arrangements of a graph-convolution layer, and the row locality of a layer.

  * `nbr_lin`: for real entries, passing the raw rows along the edges and projecting once per node (the bias once per
    received edge) is projecting every node and passing the projected rows along the edges:
        (nbr 0 X) · Wᵀ + cnt · b = nbr 0 (X · Wᵀ + b).
    It is distributivity of the product over the two edge sums and an exchange of finite sums; on the extended reals
    distributivity fails at the infinities, so every entry is asked to be a real.
  * `hiddenKer_eq_hiddenRef`: hence the two hidden layers agree for real X, W1, b1.
  * `nbr_add`, `outKer_eq_outRef`: accumulating onto z is z plus accumulating onto zero (associativity only).
  * `lin_hiddenOf_congr`: row p of a block whose rows are rows ρ p of the arrays gives row ρ p of the layer.
-/
import Idealize.ShloMosaic.PureOps.Ideal
import Idealize.ShloMosaic.Lib.ValueIdx
import proofs.«135806_j90297392431231_2_alg».proof.Proof.LibNodeScatter
import proofs.«135806_j90297392431231_2_alg».proof.Proof.LibRealValued
import proofs.«135806_j90297392431231_2_alg».proof.Proof.LibVecMatAssoc
import proofs.«135806_j90297392431231_2_alg».proof.Proof.LibGraphConv

noncomputable section
open scoped BigOperators
namespace Cert.Graph

open Idealize.ShloMosaic Idealize.ShloMosaic.ValueIdx Cert.LibNodes Cert.Lib.RealValued

variable {N E w : Nat}

/-- Accumulating onto z is z plus accumulating onto zero. -/
theorem nbr_add {D : Nat} (hN : 0 < N) (s t : IVec ⟨2, ![E, 1]⟩ w) (z X : (⟨2, ![N, D]⟩ : Shape).Idx → EReal)
    (i : (⟨2, ![N, D]⟩ : Shape).Idx) :
    nbr hN s t z X i = z i + nbr hN s t (fun _ => 0) X i := by
  unfold nbr
  simp only [zero_add, add_assoc]

/-- One edge sum, in the reals: the accumulated selected rows projected, plus the bias once per selected edge, is the
    sum over the selected edges of the projected rows:
        ∑ₖ (∑ₑ [P e] a e k) · W k + (∑ₑ [P e]) · b = ∑ₑ [P e] (∑ₖ a e k · W k + b). -/
private theorem sum_sel_lin {ι κ : Type*} [Fintype ι] [Fintype κ] (P : ι → Prop) [DecidablePred P]
    (a : ι → κ → ℝ) (W : κ → ℝ) (b : ℝ) :
    (∑ k, (∑ e, if P e then a e k else 0) * W k) + (∑ e, if P e then (1 : ℝ) else 0) * b
      = ∑ e, if P e then (∑ k, a e k * W k) + b else 0 := by
  simp only [Finset.sum_mul, ite_mul, zero_mul, one_mul]
  rw [Finset.sum_comm, ← Finset.sum_add_distrib]
  refine Finset.sum_congr rfl fun e _ => ?_
  by_cases h : P e <;> simp [h]

/-- A sum of selected reals, read in the extended reals, is the coercion of the real sum. -/
private theorem sum_sel_coe {ι : Type*} [Fintype ι] (R : ι → Prop) [DecidablePred R] (f : ι → ℝ) :
    (∑ e, if R e then ((f e : ℝ) : EReal) else 0) = ((∑ e, if R e then f e else 0 : ℝ) : EReal) := by
  rw [Cert.Lib.VecMatAssoc.coe_sum]
  exact Finset.sum_congr rfl fun e _ => by split <;> simp

/-- The two edge sums together, on the extended reals with real entries: both sides are the coercion of a real
    expression, and the real identity is `sum_sel_lin` once for each direction of the edges. -/
private theorem two_sel_lin {ι κ : Type*} [Fintype ι] [Fintype κ] (P Q : ι → Prop) [DecidablePred P] [DecidablePred Q]
    (a a' : ι → κ → ℝ) (W : κ → ℝ) (b : ℝ) :
    (∑ k, (((0 : EReal) + ∑ e, if P e then ((a e k : ℝ) : EReal) else 0)
              + ∑ e, if Q e then ((a' e k : ℝ) : EReal) else 0) * ((W k : ℝ) : EReal))
        + (((0 : EReal) + ∑ e, if P e then (1 : EReal) else 0) + ∑ e, if Q e then (1 : EReal) else 0) * ((b : ℝ) : EReal)
      = ((0 : EReal) + ∑ e, if P e then (∑ k, ((a e k : ℝ) : EReal) * ((W k : ℝ) : EReal)) + ((b : ℝ) : EReal) else 0)
        + ∑ e, if Q e then (∑ k, ((a' e k : ℝ) : EReal) * ((W k : ℝ) : EReal)) + ((b : ℝ) : EReal) else 0 := by
  simp only [zero_add, ← EReal.coe_one, ← EReal.coe_mul, ← Cert.Lib.VecMatAssoc.coe_sum, ← EReal.coe_add, sum_sel_coe]
  rw [← sum_sel_lin P a W b, ← sum_sel_lin Q a' W b]
  congr 1
  simp only [add_mul, Finset.sum_add_distrib]
  ring

/-- For real entries the affine projection commutes with passing rows along the edges. -/
theorem nbr_lin {K J : Nat} (hN : 0 < N) (s t : IVec ⟨2, ![E, 1]⟩ w) (X : (⟨2, ![N, K]⟩ : Shape).Idx → EReal)
    (W : (⟨2, ![J, K]⟩ : Shape).Idx → EReal) (b : (⟨1, ![J]⟩ : Shape).Idx → EReal)
    (hX : AllReal X) (hW : AllReal W) (hb : AllReal b) :
    nbrLin (nbr hN s t (fun _ => 0) X) (cnt s t) W b = nbr hN s t (fun _ => 0) (lin X W b) := by
  obtain ⟨xr, rfl⟩ := hX.exists_real
  obtain ⟨wr, rfl⟩ := hW.exists_real
  obtain ⟨br, rfl⟩ := hb.exists_real
  funext i
  obtain ⟨n, j, rfl⟩ : ∃ (n : Fin N) (j : Fin J), i = ix2 n j := ⟨i 0, i 1, eq_ix2 i⟩
  -- at the entry (n, j): P e says the s-word of edge e is n, Q e that its t-word is n; the sent rows are those of the other end
  exact two_sel_lin (fun e : Fin E => (s (ix2 e (0 : Fin 1))).toInt = ((n : Fin N).val : ℤ))
    (fun e : Fin E => (t (ix2 e (0 : Fin 1))).toInt = ((n : Fin N).val : ℤ))
    (fun e k => xr (ix2 (nodeOf N hN (t (ix2 e (0 : Fin 1)))) k))
    (fun e k => xr (ix2 (nodeOf N hN (s (ix2 e (0 : Fin 1)))) k))
    (fun k => wr (ix2 j k)) (br (ix1 j))

/-- The two hidden layers agree for real X, W1, b1. -/
theorem hiddenKer_eq_hiddenRef {K J : Nat} (hN : 0 < N) (s t : IVec ⟨2, ![E, 1]⟩ w)
    (X : (⟨2, ![N, K]⟩ : Shape).Idx → EReal)
    (W0 : (⟨2, ![J, K]⟩ : Shape).Idx → EReal) (b0 : (⟨1, ![J]⟩ : Shape).Idx → EReal)
    (W1 : (⟨2, ![J, K]⟩ : Shape).Idx → EReal) (b1 : (⟨1, ![J]⟩ : Shape).Idx → EReal)
    (hX : AllReal X) (hW : AllReal W1) (hb : AllReal b1) :
    hiddenKer hN s t X W0 b0 W1 b1 = hiddenRef hN s t X W0 b0 W1 b1 := by
  funext i
  unfold hiddenKer hiddenRef hiddenOf
  rw [nbr_lin hN s t X W1 b1 hX hW hb]

/-- The two output layers agree. -/
theorem outKer_eq_outRef {J L : Nat} (hN : 0 < N) (s t : IVec ⟨2, ![E, 1]⟩ w) (H : (⟨2, ![N, J]⟩ : Shape).Idx → EReal)
    (W0 : (⟨2, ![L, J]⟩ : Shape).Idx → EReal) (b0 : (⟨1, ![L]⟩ : Shape).Idx → EReal)
    (W1 : (⟨2, ![L, J]⟩ : Shape).Idx → EReal) (b1 : (⟨1, ![L]⟩ : Shape).Idx → EReal) :
    outKer hN s t H W0 b0 W1 b1 = outRef hN s t H W0 b0 W1 b1 := by
  funext i
  unfold outKer outRef
  exact nbr_add hN s t (lin H W0 b0) (lin H W1 b1) i

/-- Row locality: if row p of the block arrays x0, x1, x2 is row ρ p of X, A, c, then row p of the layer over the
    block is row ρ p of the layer over the arrays. -/
theorem lin_hiddenOf_congr {M K J L : Nat} (ρ : Fin M → Fin N)
    (x0 x1 : (⟨2, ![M, K]⟩ : Shape).Idx → EReal) (x2 : (⟨2, ![M, 1]⟩ : Shape).Idx → EReal)
    (X A : (⟨2, ![N, K]⟩ : Shape).Idx → EReal) (c : (⟨2, ![N, 1]⟩ : Shape).Idx → EReal)
    (W0 : (⟨2, ![J, K]⟩ : Shape).Idx → EReal) (b0 : (⟨1, ![J]⟩ : Shape).Idx → EReal)
    (W1 : (⟨2, ![J, K]⟩ : Shape).Idx → EReal) (b1 : (⟨1, ![J]⟩ : Shape).Idx → EReal)
    (W : (⟨2, ![L, J]⟩ : Shape).Idx → EReal) (b : (⟨1, ![L]⟩ : Shape).Idx → EReal)
    (h0 : ∀ (p : Fin M) (k : Fin K), x0 (ix2 p k) = X (ix2 (ρ p) k))
    (h1 : ∀ (p : Fin M) (k : Fin K), x1 (ix2 p k) = A (ix2 (ρ p) k))
    (h2 : ∀ p : Fin M, x2 (ix2 p (0 : Fin 1)) = c (ix2 (ρ p) (0 : Fin 1)))
    (p : Fin M) (q : Fin L) :
    lin (hiddenOf x0 x1 x2 W0 b0 W1 b1) W b (ix2 p q) = lin (hiddenOf X A c W0 b0 W1 b1) W b (ix2 (ρ p) q) := by
  -- entry (p, k) of the hidden layer over the block is entry (ρ p, k) of the hidden layer over the arrays
  have key : ∀ k : Fin J, hiddenOf x0 x1 x2 W0 b0 W1 b1 (ix2 p k) = hiddenOf X A c W0 b0 W1 b1 (ix2 (ρ p) k) := by
    intro k
    show max (((∑ k' : Fin K, x0 (ix2 p k') * W0 (ix2 k k')) + b0 (ix1 k))
          + ((∑ k' : Fin K, x1 (ix2 p k') * W1 (ix2 k k')) + x2 (ix2 p (0 : Fin 1)) * b1 (ix1 k))) 0
        = max (((∑ k' : Fin K, X (ix2 (ρ p) k') * W0 (ix2 k k')) + b0 (ix1 k))
          + ((∑ k' : Fin K, A (ix2 (ρ p) k') * W1 (ix2 k k')) + c (ix2 (ρ p) (0 : Fin 1)) * b1 (ix1 k))) 0
    simp only [h0, h1, h2]
  show (∑ k : Fin J, hiddenOf x0 x1 x2 W0 b0 W1 b1 (ix2 p k) * W (ix2 q k)) + b (ix1 q)
      = (∑ k : Fin J, hiddenOf X A c W0 b0 W1 b1 (ix2 (ρ p) k) * W (ix2 q k)) + b (ix1 q)
  simp only [key]

end Cert.Graph
end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«135806_j90297392431231_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.KernelBody.lean ====
/-
  What the kernel body stores, entry by entry on the extended reals.

  At a grid point the body loads a block of 4000 rows of the vertex array, of the accumulated neighbour rows and of
  the edge-count column, and the eight weights and biases whole, and stores two blocks of 4000 rows: the output
  layer's node term and its neighbour projection, each the affine map of the rectified hidden layer of those 4000
  rows. A change of float format is the identity on the extended reals, a product into the zero accumulator is the plain
  sum, so each stored block is `lin (hiddenOf …) W b` of LibGraphConv at the block's extent.
-/
import proofs.«135806_j90297392431231_2_alg».proof.Proof.Gen.KernelIdeal.Skeleton
import proofs.«135806_j90297392431231_2_alg».proof.Proof.LibGraphConv
import proofs.«135806_j90297392431231_2_alg».proof.Proof.LibHostRead
import proofs.«135806_j90297392431231_2_alg».proof.Proof.LibPlainDot
import proofs.«135806_j90297392431231_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section
open scoped BigOperators
namespace Cert.KernelIdeal.Body

open Idealize.ShloMosaic Idealize.ShloMosaic.ValueIdx Cert.KernelIdeal Cert.KernelIdeal.Gen

/-- The 4000 × 3 by 3 × 16 product of the hidden layer is rows times columns. -/
private theorem plain_in : Cert.LibHostRead.PlainDot dot_S4000x3_S3x16_S4000x16_1_0_0_1_n_n := by
  unfold dot_S4000x3_S3x16_S4000x16_1_0_0_1_n_n
  exact Cert.LibPlainDot.plainDot_plain _ _ _

/-- The 4000 × 16 by 16 × 3 product of the output layer is rows times columns. -/
private theorem plain_out : Cert.LibHostRead.PlainDot dot_S4000x16_S16x3_S4000x3_1_0_0_1_n_n := by
  unfold dot_S4000x16_S16x3_S4000x3_1_0_0_1_n_n
  exact Cert.LibPlainDot.plainDot_plain _ _ _

/-- A change of float format is the identity on the extended reals. -/
private theorem truncf_id {s : Shape} (x : FVec Ideal s .f32) (h : FTy.bits .bf16 < FTy.bits .f32) :
    truncf .bf16 x h = x := rfl

/-- A block of rows times the transpose of an output-major weight, into the zero accumulator: at (p, j) the sum over
    the inputs k of X (p, k) · W (j, k). -/
private theorem matT_apply {M K J : ℕ} {φ : FTy} (d : DotDims ⟨2, ![M, K]⟩ ⟨2, ![K, J]⟩ ⟨2, ![M, J]⟩)
    (hd : Cert.LibHostRead.PlainDot d) (X : FVec Ideal ⟨2, ![M, K]⟩ φ) (W : FVec Ideal ⟨2, ![J, K]⟩ .f32)
    (hb : FTy.bits .bf16 < FTy.bits .f32) (ht : (⟨2, ![J, K]⟩ : Shape).Transposes [1, 0] ⟨2, ![K, J]⟩)
    (p : Fin M) (j : Fin J) :
    matmul d none X (transpose ⟨2, ![K, J]⟩ [1, 0] (truncf .bf16 W hb) ht) (constant ⟨2, ![M, J]⟩ .f32 0x00000000#32)
        (ix2 p j)
      = ∑ k : Fin K, X (ix2 p k) * W (ix2 j k) := by
  refine (Cert.LibPlainDot.vmatmul_apply d hd _ _ p j).trans ?_
  refine Finset.sum_congr rfl fun k _ => ?_
  exact congrArg (X (ix2 p k) * ·) (transpose_ix2_apply (truncf .bf16 W hb) ht k j)

/-- The rectified hidden layer of the block, entry by entry: the value the body rounds for its two output products is
    `hiddenOf` of the block's vertex rows, accumulated neighbour rows and edge counts. -/
theorem hidden_apply (x0 x1 : Vec Ideal S4000x3 .f32) (x2 : Vec Ideal S4000x1 .f32) (x3 x5 : Vec Ideal S16x3 .f32)
    (x4 x6 : Vec Ideal S16 .f32) (p : Fin 4000) (j : Fin 16) :
    k0_pay3 x0 x1 x2 x3 x5 x4 x6 (ix2 p j) = Cert.Graph.hiddenOf x0 x1 x2 x3 x4 x5 x6 (ix2 p j) := by
  unfold k0_pay3
  simp only [addf, mulf, maximumf, truncf, broadcast, Ideal.addf_def, Ideal.mulf_def, Ideal.maximumf_def,
    Ideal.truncf_def]
  rw [matT_apply _ plain_in, matT_apply _ plain_in, Cert.LibPlainDot.rowBias_apply, Cert.LibPlainDot.rowBias_apply,
    Cert.LibKeepdims.broadcastTo_a1_ab_apply, shapeCast_self, shapeCast_self, truncf_id, truncf_id]
  show max _ (Ideal.ofBits .f32 0x00000000#32) = _
  rw [Ideal.ofBits_zero_f32]
  rfl

/-- The block stored to the first output: the node term of the output layer over the block's hidden rows. -/
theorem pay11_eq (x0 x1 : Vec Ideal S4000x3 .f32) (x2 : Vec Ideal S4000x1 .f32) (x3 x5 : Vec Ideal S16x3 .f32)
    (x4 x6 : Vec Ideal S16 .f32) (x7 : Vec Ideal S3x16 .f32) (x8 : Vec Ideal S3 .f32) :
    k0_pay1 (k0_pay5 x0 x1 x2 x3 x5 x4 x6 x7) (k0_pay6 x8)
      = Cert.Graph.lin (Cert.Graph.hiddenOf x0 x1 x2 x3 x4 x5 x6) x7 x8 := by
  funext i
  obtain ⟨p, q, rfl⟩ : ∃ (p : Fin 4000) (q : Fin 3), i = ix2 p q := ⟨i 0, i 1, eq_ix2 i⟩
  unfold k0_pay1 k0_pay5 k0_pay6
  simp only [addf, Ideal.addf_def]
  rw [matT_apply _ plain_out, Cert.LibPlainDot.rowBias_apply]
  show (∑ k : Fin 16, k0_pay3 x0 x1 x2 x3 x5 x4 x6 (ix2 p k) * x7 (ix2 q k)) + x8 (ix1 q)
      = (∑ k : Fin 16, Cert.Graph.hiddenOf x0 x1 x2 x3 x4 x5 x6 (ix2 p k) * x7 (ix2 q k)) + x8 (ix1 q)
  refine congrArg (· + x8 (ix1 q)) (Finset.sum_congr rfl fun k _ => ?_)
  exact congrArg (· * x7 (ix2 q k)) (hidden_apply x0 x1 x2 x3 x5 x4 x6 p k)

/-- The block stored to the second output: the neighbour projection of the output layer over the block's hidden rows. -/
theorem pay12_eq (x0 x1 : Vec Ideal S4000x3 .f32) (x2 : Vec Ideal S4000x1 .f32) (x3 x5 : Vec Ideal S16x3 .f32)
    (x4 x6 : Vec Ideal S16 .f32) (x9 : Vec Ideal S3x16 .f32) (x10 : Vec Ideal S3 .f32) :
    k0_pay2 (k0_pay3 x0 x1 x2 x3 x5 x4 x6) (k0_pay4 x9) x10
      = Cert.Graph.lin (Cert.Graph.hiddenOf x0 x1 x2 x3 x4 x5 x6) x9 x10 := by
  funext i
  obtain ⟨p, q, rfl⟩ : ∃ (p : Fin 4000) (q : Fin 3), i = ix2 p q := ⟨i 0, i 1, eq_ix2 i⟩
  unfold k0_pay2 k0_pay4
  simp only [addf, Ideal.addf_def]
  rw [matT_apply _ plain_out, Cert.LibPlainDot.rowBias_apply]
  show (∑ k : Fin 16, k0_pay3 x0 x1 x2 x3 x5 x4 x6 (ix2 p k) * x9 (ix2 q k)) + x10 (ix1 q)
      = (∑ k : Fin 16, Cert.Graph.hiddenOf x0 x1 x2 x3 x4 x5 x6 (ix2 p k) * x9 (ix2 q k)) + x10 (ix1 q)
  refine congrArg (· + x10 (ix1 q)) (Finset.sum_congr rfl fun k _ => ?_)
  exact congrArg (· * x9 (ix2 q k)) (hidden_apply x0 x1 x2 x3 x5 x4 x6 p k)

end Cert.KernelIdeal.Body
end
-- ==== Proof.KernelCover.lean ====
/-
  The blocks of the two output windows tile the node axis.

  The grid has 500 points; at point t each output window holds rows 4000·t … 4000·t + 3999 of its array, all three
  columns. So row r of either output array lies in the block of point r / 4000, and every point writes its block back:
  the 500 blocks cover the 2,000,000 rows.
-/
import proofs.«135806_j90297392431231_2_alg».proof.Proof.Gen.KernelIdeal.Frame
import Idealize.ShloMosaic.Lib.Pipeline.Value
noncomputable section
namespace Cert.KernelIdeal.Cover
open Idealize.ShloMosaic Idealize.ShloMosaic.TcCoe Idealize.SL.Sem Cert.KernelIdeal Cert.KernelIdeal.Gen

/-- At grid point t both output windows sit at block (t, 0): block row t, the one block column. Decided over the 500
    points. -/
theorem outIndex : ∀ t : Fin cfg0.N,
    (win0_11.index t (0 : Fin 2) = t.val ∧ win0_11.index t (1 : Fin 2) = 0)
      ∧ (win0_12.index t (0 : Fin 2) = t.val ∧ win0_12.index t (1 : Fin 2) = 0) :=
  (by decide +kernel : ∀ t : Fin grid0.N,
    (win0_11.index t (0 : Fin 2) = t.val ∧ win0_11.index t (1 : Fin 2) = 0)
      ∧ (win0_12.index t (0 : Fin 2) = t.val ∧ win0_12.index t (1 : Fin 2) = 0))

/-- An index lies in the first output's block at point t when, on each axis, its coordinate lies in the block's
    stretch of that axis. -/
theorem mem_blk11 (t : Fin cfg0.N) (i : S2000000x3.Idx) :
    i ∈ ((cfg0.win 11).blk t).view.set ↔ ∀ a : Fin 2, win0_11.index t a * S4000x3.size a ≤ (i a).val
      ∧ (i a).val < win0_11.index t a * S4000x3.size a + S4000x3.size a := by
  show i ∈ ((View.whole main_v50_0).slice (win0_11.rect t)).set ↔ _
  rw [View.set_slice_whole, Rect.mem_set_unit]
  exact Iff.rfl

/-- The same for the second output's block. -/
theorem mem_blk12 (t : Fin cfg0.N) (i : S2000000x3.Idx) :
    i ∈ ((cfg0.win 12).blk t).view.set ↔ ∀ a : Fin 2, win0_12.index t a * S4000x3.size a ≤ (i a).val
      ∧ (i a).val < win0_12.index t a * S4000x3.size a + S4000x3.size a := by
  show i ∈ ((View.whole main_v50_1).slice (win0_12.rect t)).set ↔ _
  rw [View.set_slice_whole, Rect.mem_set_unit]
  exact Iff.rfl

/-- Every index of the first output array lies in the block of some grid point (row r is in the block of point r / 4000), and every point writes back. -/
theorem cover11 (i : S2000000x3.Idx) : ∃ t : Fin cfg0.N, (cfg0.win 11).flush t = true ∧ i ∈ ((cfg0.win 11).blk t).view.set := by
  have hi0 : (i 0).val < 2000000 := (i 0).isLt
  have hi1 : (i 1).val < 3 := (i 1).isLt
  have hN : cfg0.N = 500 := N_0
  have hlt : (i 0).val / 4000 < cfg0.N := by rw [hN]; omega
  obtain ⟨⟨e0, e1⟩, -⟩ := outIndex ⟨(i 0).val / 4000, hlt⟩
  refine ⟨⟨(i 0).val / 4000, hlt⟩, flush0_11 _, ?_⟩
  rw [mem_blk11]
  intro a
  match a with
  | ⟨0, _⟩ =>
    show win0_11.index ⟨(i 0).val / 4000, hlt⟩ (0 : Fin 2) * 4000 ≤ (i 0).val
      ∧ (i 0).val < win0_11.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_11.index ⟨(i 0).val / 4000, hlt⟩ (1 : Fin 2) * 3 ≤ (i 1).val
      ∧ (i 1).val < win0_11.index ⟨(i 0).val / 4000, hlt⟩ (1 : Fin 2) * 3 + 3
    rw [e1]
    omega

/-- The same for the second output array. -/
theorem cover12 (i : S2000000x3.Idx) : ∃ t : Fin cfg0.N, (cfg0.win 12).flush t = true ∧ i ∈ ((cfg0.win 12).blk t).view.set := by
  have hi0 : (i 0).val < 2000000 := (i 0).isLt
  have hi1 : (i 1).val < 3 := (i 1).isLt
  have hN : cfg0.N = 500 := N_0
  have hlt : (i 0).val / 4000 < cfg0.N := by rw [hN]; omega
  obtain ⟨-, e0, e1⟩ := outIndex ⟨(i 0).val / 4000, hlt⟩
  refine ⟨⟨(i 0).val / 4000, hlt⟩, flush0_12 _, ?_⟩
  rw [mem_blk12]
  intro a
  match a with
  | ⟨0, _⟩ =>
    show win0_12.index ⟨(i 0).val / 4000, hlt⟩ (0 : Fin 2) * 4000 ≤ (i 0).val
      ∧ (i 0).val < win0_12.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_12.index ⟨(i 0).val / 4000, hlt⟩ (1 : Fin 2) * 3 ≤ (i 1).val
      ∧ (i 1).val < win0_12.index ⟨(i 0).val / 4000, hlt⟩ (1 : Fin 2) * 3 + 3
    rw [e1]
    omega

end Cert.KernelIdeal.Cover
end
-- ==== Proof.KernelBlocks.lean ====
/-
  From the blocks the grid points write back to the two whole output arrays of the kernel's region.

  Grid point t stages rows 4000·t … 4000·t + 3999 of the vertex array, of the accumulated neighbour rows and of the
  edge-count column, the weights and biases whole, and writes back rows 4000·t … 4000·t + 3999 of each output. What it
  writes is the affine map of the hidden rows of that block (KernelBody), and a layer's row reads only the same row
  of its inputs (LibGraphConvLaw `lin_hiddenOf_congr`), so every written block is a block of ONE whole-array function; the
  500 blocks tile the 2,000,000 rows, so the arrays end holding that function.
-/
import proofs.«135806_j90297392431231_2_alg».proof.Proof.Gen.KernelIdeal.Frame
import proofs.«135806_j90297392431231_2_alg».proof.Proof.LibGraphConv
import proofs.«135806_j90297392431231_2_alg».proof.Proof.LibGraphConvLaw
import proofs.«135806_j90297392431231_2_alg».proof.Proof.KernelBody
import proofs.«135806_j90297392431231_2_alg».proof.Proof.KernelCover
import Idealize.ShloMosaic.Lib.Pipeline.Value
import Idealize.ShloMosaic.Lib.ValueIdx

noncomputable section
open scoped BigOperators
namespace Cert.KernelIdeal.Blocks

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The hidden layer over the arrays as the region finds them: the vertex array, the accumulated neighbour rows
    (`main_v32`), the edge-count column (`main_v49`) and the first layer's weights and biases. -/
def hid (c : Dev nD) : (⟨2, ![2000000, 16]⟩ : Shape).Idx → EReal :=
  Cert.Graph.hiddenOf (V m c main_arg0) (V m c main_v32) (V m c main_v49) (V m c main_arg2) (V m c main_arg3)
    (V m c main_arg4) (V m c main_arg5)

/-- Both zero offsets of a rank-two buffer, as the constant function. -/
theorem zeros2 : (![0, 0] : Fin 2 → Nat) = fun _ => 0 := funext fun a => by fin_cases a <;> rfl
/-- The zero offset of a rank-one buffer, as the constant function. -/
theorem zeros1 : (![0] : Fin 1 → Nat) = fun _ => 0 := funext fun a => by fin_cases a <;> rfl

/-! ## The printed index maps, decided over the 500 grid points

The three node-indexed inputs and the two outputs sit at row block t, column block 0; every weight and bias at block 0. -/

theorem rowIndex0 : ∀ t : Fin cfg0.N, win0_0.index t (0 : Fin 2) = t.val ∧ win0_0.index t (1 : Fin 2) = 0 :=
  (by decide +kernel : ∀ t : Fin grid0.N, _)
theorem rowIndex1 : ∀ t : Fin cfg0.N, win0_1.index t (0 : Fin 2) = t.val ∧ win0_1.index t (1 : Fin 2) = 0 :=
  (by decide +kernel : ∀ t : Fin grid0.N, _)
theorem rowIndex2 : ∀ t : Fin cfg0.N, win0_2.index t (0 : Fin 2) = t.val ∧ win0_2.index t (1 : Fin 2) = 0 :=
  (by decide +kernel : ∀ t : Fin grid0.N, _)
theorem rowIndex11 : ∀ t : Fin cfg0.N, win0_11.index t (0 : Fin 2) = t.val ∧ win0_11.index t (1 : Fin 2) = 0 :=
  (by decide +kernel : ∀ t : Fin grid0.N, _)
theorem rowIndex12 : ∀ t : Fin cfg0.N, win0_12.index t (0 : Fin 2) = t.val ∧ win0_12.index t (1 : Fin 2) = 0 :=
  (by decide +kernel : ∀ t : Fin grid0.N, _)
theorem wholeIndex3 : ∀ t : Fin cfg0.N, win0_3.index t (0 : Fin 2) = 0 ∧ win0_3.index t (1 : Fin 2) = 0 :=
  (by decide +kernel : ∀ t : Fin grid0.N, _)
theorem wholeIndex5 : ∀ t : Fin cfg0.N, win0_5.index t (0 : Fin 2) = 0 ∧ win0_5.index t (1 : Fin 2) = 0 :=
  (by decide +kernel : ∀ t : Fin grid0.N, _)
theorem wholeIndex7 : ∀ t : Fin cfg0.N, win0_7.index t (0 : Fin 2) = 0 ∧ win0_7.index t (1 : Fin 2) = 0 :=
  (by decide +kernel : ∀ t : Fin grid0.N, _)
theorem wholeIndex9 : ∀ t : Fin cfg0.N, win0_9.index t (0 : Fin 2) = 0 ∧ win0_9.index t (1 : Fin 2) = 0 :=
  (by decide +kernel : ∀ t : Fin grid0.N, _)
theorem wholeIndex4 : ∀ t : Fin cfg0.N, win0_4.index t (0 : Fin 1) = 0 :=
  (by decide +kernel : ∀ t : Fin grid0.N, _)
theorem wholeIndex6 : ∀ t : Fin cfg0.N, win0_6.index t (0 : Fin 1) = 0 :=
  (by decide +kernel : ∀ t : Fin grid0.N, _)
theorem wholeIndex8 : ∀ t : Fin cfg0.N, win0_8.index t (0 : Fin 1) = 0 :=
  (by decide +kernel : ∀ t : Fin grid0.N, _)
theorem wholeIndex10 : ∀ t : Fin cfg0.N, win0_10.index t (0 : Fin 1) = 0 :=
  (by decide +kernel : ∀ t : Fin grid0.N, _)

/-! ## A window's block read through an arbitrary array

Stated over an arbitrary array f, so that nothing here looks inside the arrays the region finds. -/

/-- Row p of point t's block of the vertex window is row 4000·t + p of the array. -/
theorem vertexRows (t : Fin cfg0.N) (f : S2000000x3.Idx → EReal) (p : Fin 4000) (k : Fin 3) (r : Fin 2000000)
    (hr : r.val = 4000 * t.val + p.val) :
    ((cfg0.win 0).blk t).view.read (Elt Ideal) f (ix2 p k) = f (ix2 r k) := by
  obtain ⟨e0, e1⟩ := rowIndex0 t
  show f (((cfg0.win 0).blk t).view.emb (ix2 p k)) = f (ix2 r k)
  refine congrArg f (funext fun a => Fin.ext ?_)
  match a with
  | ⟨0, _⟩ => show win0_0.index t (0 : Fin 2) * 4000 + 1 * p.val = r.val; omega
  | ⟨1, _⟩ => show win0_0.index t (1 : Fin 2) * 3 + 1 * k.val = k.val; omega

/-- Row p of point t's block of the neighbour-row window is row 4000·t + p of the array. -/
theorem nbrRows (t : Fin cfg0.N) (f : S2000000x3.Idx → EReal) (p : Fin 4000) (k : Fin 3) (r : Fin 2000000)
    (hr : r.val = 4000 * t.val + p.val) :
    ((cfg0.win 1).blk t).view.read (Elt Ideal) f (ix2 p k) = f (ix2 r k) := by
  obtain ⟨e0, e1⟩ := rowIndex1 t
  show f (((cfg0.win 1).blk t).view.emb (ix2 p k)) = f (ix2 r k)
  refine congrArg f (funext fun a => Fin.ext ?_)
  match a with
  | ⟨0, _⟩ => show win0_1.index t (0 : Fin 2) * 4000 + 1 * p.val = r.val; omega
  | ⟨1, _⟩ => show win0_1.index t (1 : Fin 2) * 3 + 1 * k.val = k.val; omega

/-- Row p of point t's block of the edge-count window is row 4000·t + p of the column. -/
theorem countRows (t : Fin cfg0.N) (f : S2000000x1.Idx → EReal) (p : Fin 4000) (k : Fin 1) (r : Fin 2000000)
    (hr : r.val = 4000 * t.val + p.val) :
    ((cfg0.win 2).blk t).view.read (Elt Ideal) f (ix2 p k) = f (ix2 r k) := by
  obtain ⟨e0, e1⟩ := rowIndex2 t
  show f (((cfg0.win 2).blk t).view.emb (ix2 p k)) = f (ix2 r k)
  refine congrArg f (funext fun a => Fin.ext ?_)
  match a with
  | ⟨0, _⟩ => show win0_2.index t (0 : Fin 2) * 4000 + 1 * p.val = r.val; omega
  | ⟨1, _⟩ => show win0_2.index t (1 : Fin 2) * 1 + 1 * k.val = k.val; omega

/-- Row p of point t's block of the first output window is row 4000·t + p of the array. -/
theorem nodeOutRows (t : Fin cfg0.N) (f : S2000000x3.Idx → EReal) (p : Fin 4000) (k : Fin 3) (r : Fin 2000000)
    (hr : r.val = 4000 * t.val + p.val) :
    ((cfg0.win 11).blk t).view.read (Elt Ideal) f (ix2 p k) = f (ix2 r k) := by
  obtain ⟨e0, e1⟩ := rowIndex11 t
  show f (((cfg0.win 11).blk t).view.emb (ix2 p k)) = f (ix2 r k)
  refine congrArg f (funext fun a => Fin.ext ?_)
  match a with
  | ⟨0, _⟩ => show win0_11.index t (0 : Fin 2) * 4000 + 1 * p.val = r.val; omega
  | ⟨1, _⟩ => show win0_11.index t (1 : Fin 2) * 3 + 1 * k.val = k.val; omega

/-- Row p of point t's block of the second output window is row 4000·t + p of the array. -/
theorem nbrOutRows (t : Fin cfg0.N) (f : S2000000x3.Idx → EReal) (p : Fin 4000) (k : Fin 3) (r : Fin 2000000)
    (hr : r.val = 4000 * t.val + p.val) :
    ((cfg0.win 12).blk t).view.read (Elt Ideal) f (ix2 p k) = f (ix2 r k) := by
  obtain ⟨e0, e1⟩ := rowIndex12 t
  show f (((cfg0.win 12).blk t).view.emb (ix2 p k)) = f (ix2 r k)
  refine congrArg f (funext fun a => Fin.ext ?_)
  match a with
  | ⟨0, _⟩ => show win0_12.index t (0 : Fin 2) * 4000 + 1 * p.val = r.val; omega
  | ⟨1, _⟩ => show win0_12.index t (1 : Fin 2) * 3 + 1 * k.val = k.val; omega

/-- The first layer's node weight is staged whole. -/
theorem whole3 (t : Fin cfg0.N) (f : S16x3.Idx → EReal) :
    ((cfg0.win 3).blk t).view.read (Elt Ideal) f = f := by
  obtain ⟨e0, e1⟩ := wholeIndex3 t
  funext y
  show f (((cfg0.win 3).blk t).view.emb y) = f y
  refine congrArg f (funext fun a => Fin.ext ?_)
  match a with
  | ⟨0, _⟩ => show win0_3.index t (0 : Fin 2) * 16 + 1 * (y 0).val = (y 0).val; omega
  | ⟨1, _⟩ => show win0_3.index t (1 : Fin 2) * 3 + 1 * (y 1).val = (y 1).val; omega

/-- The first layer's node bias is staged whole. -/
theorem whole4 (t : Fin cfg0.N) (f : S16.Idx → EReal) :
    ((cfg0.win 4).blk t).view.read (Elt Ideal) f = f := by
  have e0 := wholeIndex4 t
  funext y
  show f (((cfg0.win 4).blk t).view.emb y) = f y
  refine congrArg f (funext fun a => Fin.ext ?_)
  match a with
  | ⟨0, _⟩ => show win0_4.index t (0 : Fin 1) * 16 + 1 * (y 0).val = (y 0).val; omega

/-- The first layer's neighbour weight is staged whole. -/
theorem whole5 (t : Fin cfg0.N) (f : S16x3.Idx → EReal) :
    ((cfg0.win 5).blk t).view.read (Elt Ideal) f = f := by
  obtain ⟨e0, e1⟩ := wholeIndex5 t
  funext y
  show f (((cfg0.win 5).blk t).view.emb y) = f y
  refine congrArg f (funext fun a => Fin.ext ?_)
  match a with
  | ⟨0, _⟩ => show win0_5.index t (0 : Fin 2) * 16 + 1 * (y 0).val = (y 0).val; omega
  | ⟨1, _⟩ => show win0_5.index t (1 : Fin 2) * 3 + 1 * (y 1).val = (y 1).val; omega

/-- The first layer's neighbour bias is staged whole. -/
theorem whole6 (t : Fin cfg0.N) (f : S16.Idx → EReal) :
    ((cfg0.win 6).blk t).view.read (Elt Ideal) f = f := by
  have e0 := wholeIndex6 t
  funext y
  show f (((cfg0.win 6).blk t).view.emb y) = f y
  refine congrArg f (funext fun a => Fin.ext ?_)
  match a with
  | ⟨0, _⟩ => show win0_6.index t (0 : Fin 1) * 16 + 1 * (y 0).val = (y 0).val; omega

/-- The output layer's node weight is staged whole. -/
theorem whole7 (t : Fin cfg0.N) (f : S3x16.Idx → EReal) :
    ((cfg0.win 7).blk t).view.read (Elt Ideal) f = f := by
  obtain ⟨e0, e1⟩ := wholeIndex7 t
  funext y
  show f (((cfg0.win 7).blk t).view.emb y) = f y
  refine congrArg f (funext fun a => Fin.ext ?_)
  match a with
  | ⟨0, _⟩ => show win0_7.index t (0 : Fin 2) * 3 + 1 * (y 0).val = (y 0).val; omega
  | ⟨1, _⟩ => show win0_7.index t (1 : Fin 2) * 16 + 1 * (y 1).val = (y 1).val; omega

/-- The output layer's node bias is staged whole. -/
theorem whole8 (t : Fin cfg0.N) (f : S3.Idx → EReal) :
    ((cfg0.win 8).blk t).view.read (Elt Ideal) f = f := by
  have e0 := wholeIndex8 t
  funext y
  show f (((cfg0.win 8).blk t).view.emb y) = f y
  refine congrArg f (funext fun a => Fin.ext ?_)
  match a with
  | ⟨0, _⟩ => show win0_8.index t (0 : Fin 1) * 3 + 1 * (y 0).val = (y 0).val; omega

/-- The output layer's neighbour weight is staged whole. -/
theorem whole9 (t : Fin cfg0.N) (f : S3x16.Idx → EReal) :
    ((cfg0.win 9).blk t).view.read (Elt Ideal) f = f := by
  obtain ⟨e0, e1⟩ := wholeIndex9 t
  funext y
  show f (((cfg0.win 9).blk t).view.emb y) = f y
  refine congrArg f (funext fun a => Fin.ext ?_)
  match a with
  | ⟨0, _⟩ => show win0_9.index t (0 : Fin 2) * 3 + 1 * (y 0).val = (y 0).val; omega
  | ⟨1, _⟩ => show win0_9.index t (1 : Fin 2) * 16 + 1 * (y 1).val = (y 1).val; omega

/-- The output layer's neighbour bias is staged whole. -/
theorem whole10 (t : Fin cfg0.N) (f : S3.Idx → EReal) :
    ((cfg0.win 10).blk t).view.read (Elt Ideal) f = f := by
  have e0 := wholeIndex10 t
  funext y
  show f (((cfg0.win 10).blk t).view.emb y) = f y
  refine congrArg f (funext fun a => Fin.ext ?_)
  match a with
  | ⟨0, _⟩ => show win0_10.index t (0 : Fin 1) * 3 + 1 * (y 0).val = (y 0).val; omega

/-! ## The arrays the region finds, under their program names

Window w's array is named through the window table; it is the program's buffer of that window. The two spellings
are joined without looking inside the contents. -/

/-- The contents of one buffer under two names. -/
theorem V_named (c : Dev nD) {b b' : Ref sig .tc} (e : b = b') : HEq (V m c b) (V m c b') := by subst e; rfl

theorem arr0 (c : Dev nD) : V m c (Pipeline.arrRef spec0 (0 : Fin cfg0.W)) = V m c main_arg0 := by
  have h : HEq (V m c (Pipeline.arrRef spec0 (0 : Fin cfg0.W))) (V m c main_arg0) :=
    V_named m c (b := Pipeline.arrRef spec0 (0 : Fin cfg0.W)) (b' := main_arg0) rfl
  exact eq_of_heq h

theorem arr1 (c : Dev nD) : V m c (Pipeline.arrRef spec0 (1 : Fin cfg0.W)) = V m c main_v32 := by
  have h : HEq (V m c (Pipeline.arrRef spec0 (1 : Fin cfg0.W))) (V m c main_v32) :=
    V_named m c (b := Pipeline.arrRef spec0 (1 : Fin cfg0.W)) (b' := main_v32) rfl
  exact eq_of_heq h

theorem arr2 (c : Dev nD) : V m c (Pipeline.arrRef spec0 (2 : Fin cfg0.W)) = V m c main_v49 := by
  have h : HEq (V m c (Pipeline.arrRef spec0 (2 : Fin cfg0.W))) (V m c main_v49) :=
    V_named m c (b := Pipeline.arrRef spec0 (2 : Fin cfg0.W)) (b' := main_v49) rfl
  exact eq_of_heq h

theorem arr3 (c : Dev nD) : V m c (Pipeline.arrRef spec0 (3 : Fin cfg0.W)) = V m c main_arg2 := by
  have h : HEq (V m c (Pipeline.arrRef spec0 (3 : Fin cfg0.W))) (V m c main_arg2) :=
    V_named m c (b := Pipeline.arrRef spec0 (3 : Fin cfg0.W)) (b' := main_arg2) rfl
  exact eq_of_heq h

theorem arr4 (c : Dev nD) : V m c (Pipeline.arrRef spec0 (4 : Fin cfg0.W)) = V m c main_arg3 := by
  have h : HEq (V m c (Pipeline.arrRef spec0 (4 : Fin cfg0.W))) (V m c main_arg3) :=
    V_named m c (b := Pipeline.arrRef spec0 (4 : Fin cfg0.W)) (b' := main_arg3) rfl
  exact eq_of_heq h

theorem arr5 (c : Dev nD) : V m c (Pipeline.arrRef spec0 (5 : Fin cfg0.W)) = V m c main_arg4 := by
  have h : HEq (V m c (Pipeline.arrRef spec0 (5 : Fin cfg0.W))) (V m c main_arg4) :=
    V_named m c (b := Pipeline.arrRef spec0 (5 : Fin cfg0.W)) (b' := main_arg4) rfl
  exact eq_of_heq h

theorem arr6 (c : Dev nD) : V m c (Pipeline.arrRef spec0 (6 : Fin cfg0.W)) = V m c main_arg5 := by
  have h : HEq (V m c (Pipeline.arrRef spec0 (6 : Fin cfg0.W))) (V m c main_arg5) :=
    V_named m c (b := Pipeline.arrRef spec0 (6 : Fin cfg0.W)) (b' := main_arg5) rfl
  exact eq_of_heq h

theorem arr7 (c : Dev nD) : V m c (Pipeline.arrRef spec0 (7 : Fin cfg0.W)) = V m c main_arg6 := by
  have h : HEq (V m c (Pipeline.arrRef spec0 (7 : Fin cfg0.W))) (V m c main_arg6) :=
    V_named m c (b := Pipeline.arrRef spec0 (7 : Fin cfg0.W)) (b' := main_arg6) rfl
  exact eq_of_heq h

theorem arr8 (c : Dev nD) : V m c (Pipeline.arrRef spec0 (8 : Fin cfg0.W)) = V m c main_arg7 := by
  have h : HEq (V m c (Pipeline.arrRef spec0 (8 : Fin cfg0.W))) (V m c main_arg7) :=
    V_named m c (b := Pipeline.arrRef spec0 (8 : Fin cfg0.W)) (b' := main_arg7) rfl
  exact eq_of_heq h

theorem arr9 (c : Dev nD) : V m c (Pipeline.arrRef spec0 (9 : Fin cfg0.W)) = V m c main_arg8 := by
  have h : HEq (V m c (Pipeline.arrRef spec0 (9 : Fin cfg0.W))) (V m c main_arg8) :=
    V_named m c (b := Pipeline.arrRef spec0 (9 : Fin cfg0.W)) (b' := main_arg8) rfl
  exact eq_of_heq h

theorem arr10 (c : Dev nD) : V m c (Pipeline.arrRef spec0 (10 : Fin cfg0.W)) = V m c main_arg9 := by
  have h : HEq (V m c (Pipeline.arrRef spec0 (10 : Fin cfg0.W))) (V m c main_arg9) :=
    V_named m c (b := Pipeline.arrRef spec0 (10 : Fin cfg0.W)) (b' := main_arg9) rfl
  exact eq_of_heq h

/-! ## Each input window's block at a point, as a read of the program's array -/

theorem iblk0 (c : Dev nD) (t : Fin cfg0.N) :
    iblk m c 0 t = ((cfg0.win 0).blk t).view.read (Elt Ideal) (V m c main_arg0) :=
  congrArg (((cfg0.win 0).blk t).view.read (Elt Ideal)) (arr0 m c)

theorem iblk1 (c : Dev nD) (t : Fin cfg0.N) :
    iblk m c 1 t = ((cfg0.win 1).blk t).view.read (Elt Ideal) (V m c main_v32) :=
  congrArg (((cfg0.win 1).blk t).view.read (Elt Ideal)) (arr1 m c)

theorem iblk2 (c : Dev nD) (t : Fin cfg0.N) :
    iblk m c 2 t = ((cfg0.win 2).blk t).view.read (Elt Ideal) (V m c main_v49) :=
  congrArg (((cfg0.win 2).blk t).view.read (Elt Ideal)) (arr2 m c)

theorem iblk3 (c : Dev nD) (t : Fin cfg0.N) :
    iblk m c 3 t = ((cfg0.win 3).blk t).view.read (Elt Ideal) (V m c main_arg2) :=
  congrArg (((cfg0.win 3).blk t).view.read (Elt Ideal)) (arr3 m c)

theorem iblk4 (c : Dev nD) (t : Fin cfg0.N) :
    iblk m c 4 t = ((cfg0.win 4).blk t).view.read (Elt Ideal) (V m c main_arg3) :=
  congrArg (((cfg0.win 4).blk t).view.read (Elt Ideal)) (arr4 m c)

theorem iblk5 (c : Dev nD) (t : Fin cfg0.N) :
    iblk m c 5 t = ((cfg0.win 5).blk t).view.read (Elt Ideal) (V m c main_arg4) :=
  congrArg (((cfg0.win 5).blk t).view.read (Elt Ideal)) (arr5 m c)

theorem iblk6 (c : Dev nD) (t : Fin cfg0.N) :
    iblk m c 6 t = ((cfg0.win 6).blk t).view.read (Elt Ideal) (V m c main_arg5) :=
  congrArg (((cfg0.win 6).blk t).view.read (Elt Ideal)) (arr6 m c)

theorem iblk7 (c : Dev nD) (t : Fin cfg0.N) :
    iblk m c 7 t = ((cfg0.win 7).blk t).view.read (Elt Ideal) (V m c main_arg6) :=
  congrArg (((cfg0.win 7).blk t).view.read (Elt Ideal)) (arr7 m c)

theorem iblk8 (c : Dev nD) (t : Fin cfg0.N) :
    iblk m c 8 t = ((cfg0.win 8).blk t).view.read (Elt Ideal) (V m c main_arg7) :=
  congrArg (((cfg0.win 8).blk t).view.read (Elt Ideal)) (arr8 m c)

theorem iblk9 (c : Dev nD) (t : Fin cfg0.N) :
    iblk m c 9 t = ((cfg0.win 9).blk t).view.read (Elt Ideal) (V m c main_arg8) :=
  congrArg (((cfg0.win 9).blk t).view.read (Elt Ideal)) (arr9 m c)

theorem iblk10 (c : Dev nD) (t : Fin cfg0.N) :
    iblk m c 10 t = ((cfg0.win 10).blk t).view.read (Elt Ideal) (V m c main_arg9) :=
  congrArg (((cfg0.win 10).blk t).view.read (Elt Ideal)) (arr10 m c)

/-! ## What a point leaves in the output buffers, over arbitrary blocks -/

/-- The one store covers the buffer and every load reads a whole buffer, so the first output buffer holds the output
    layer's node term of the block's hidden rows. -/
theorem nodeOut_eq (x0 x1 : Vec Ideal S4000x3 .f32) (x2 : Vec Ideal S4000x1 .f32) (x3 : Vec Ideal S16x3 .f32)
    (x4 : Vec Ideal S16 .f32) (x5 : Vec Ideal S16x3 .f32) (x6 : Vec Ideal S16 .f32) (x7 : Vec Ideal S3x16 .f32)
    (x8 : Vec Ideal S3 .f32) (x9 : Vec Ideal S3x16 .f32) (x10 : Vec Ideal S3 .f32) :
    out0_11 x0 x1 x2 x3 x4 x5 x6 x7 x8 x9 x10
      = Cert.Graph.lin (Cert.Graph.hiddenOf x0 x1 x2 x3 x4 x5 x6) x7 x8 := by
  unfold out0_11
  rw [View.canon_unit_zero zeros2]
  simp only [View.ld_unit_zero (S := S4000x3) zeros2, View.ld_unit_zero (S := S4000x1) zeros2,
    View.ld_unit_zero (S := S16x3) zeros2, View.ld_unit_zero (S := S3x16) zeros2,
    View.ld_unit_zero (S := S16) zeros1, View.ld_unit_zero (S := S3) zeros1]
  exact Body.pay11_eq x0 x1 x2 x3 x5 x4 x6 x7 x8

/-- And the second output buffer the output layer's neighbour projection of the block's hidden rows. -/
theorem nbrOut_eq (x0 x1 : Vec Ideal S4000x3 .f32) (x2 : Vec Ideal S4000x1 .f32) (x3 : Vec Ideal S16x3 .f32)
    (x4 : Vec Ideal S16 .f32) (x5 : Vec Ideal S16x3 .f32) (x6 : Vec Ideal S16 .f32) (x7 : Vec Ideal S3x16 .f32)
    (x8 : Vec Ideal S3 .f32) (x9 : Vec Ideal S3x16 .f32) (x10 : Vec Ideal S3 .f32) :
    out0_12 x0 x1 x2 x3 x4 x5 x6 x7 x8 x9 x10
      = Cert.Graph.lin (Cert.Graph.hiddenOf x0 x1 x2 x3 x4 x5 x6) x9 x10 := by
  unfold out0_12
  rw [View.canon_unit_zero zeros2]
  simp only [View.ld_unit_zero (S := S4000x3) zeros2, View.ld_unit_zero (S := S4000x1) zeros2,
    View.ld_unit_zero (S := S16x3) zeros2, View.ld_unit_zero (S := S3x16) zeros2,
    View.ld_unit_zero (S := S16) zeros1, View.ld_unit_zero (S := S3) zeros1]
  exact Body.pay12_eq x0 x1 x2 x3 x5 x4 x6 x9 x10

/-! ## A block of the layer is the layer of the blocks -/

/-- The row of the arrays that row p of point t's blocks is. -/
def rowAt (t : Fin cfg0.N) (p : Fin 4000) : Fin 2000000 :=
  ⟨4000 * t.val + p.val, by have := t.isLt; have hN : cfg0.N = 500 := N_0; have := p.isLt; omega⟩

/-- When the three node-indexed blocks are rows 4000·t … of three arrays and the weight blocks are the weights, the
    layer of the blocks, as written back through the first output's window, is rows 4000·t … of the layer of the arrays
    (a layer's row reads only the same row of its inputs). -/
theorem nodeOutBlock (t : Fin cfg0.N) (X A : S2000000x3.Idx → EReal) (C : S2000000x1.Idx → EReal)
    (W0 : S16x3.Idx → EReal) (b0 : S16.Idx → EReal) (W1 : S16x3.Idx → EReal) (b1 : S16.Idx → EReal)
    (W : S3x16.Idx → EReal) (b : S3.Idx → EReal)
    (x0 x1 : S4000x3.Idx → EReal) (x2 : S4000x1.Idx → EReal)
    (w0 : S16x3.Idx → EReal) (c0 : S16.Idx → EReal) (w1 : S16x3.Idx → EReal) (c1 : S16.Idx → EReal)
    (w : S3x16.Idx → EReal) (c : S3.Idx → EReal)
    (h0 : ∀ (p : Fin 4000) (k : Fin 3), x0 (ix2 p k) = X (ix2 (rowAt t p) k))
    (h1 : ∀ (p : Fin 4000) (k : Fin 3), x1 (ix2 p k) = A (ix2 (rowAt t p) k))
    (h2 : ∀ p : Fin 4000, x2 (ix2 p (0 : Fin 1)) = C (ix2 (rowAt t p) (0 : Fin 1)))
    (e0 : w0 = W0) (e1 : c0 = b0) (e2 : w1 = W1) (e3 : c1 = b1) (e4 : w = W) (e5 : c = b) :
    (cfg0.win 11).cut (grid0.coords t) (Cert.Graph.lin (Cert.Graph.hiddenOf x0 x1 x2 w0 c0 w1 c1) w c)
      = ((cfg0.win 11).blk t).view.read (Elt Ideal) (Cert.Graph.lin (Cert.Graph.hiddenOf X A C W0 b0 W1 b1) W b) := by
  subst e0 e1 e2 e3 e4 e5
  funext y
  obtain ⟨p, q, rfl⟩ : ∃ (p : Fin 4000) (q : Fin 3), y = ix2 p q := ⟨y 0, y 1, eq_ix2 y⟩
  rw [nodeOutRows t (Cert.Graph.lin (Cert.Graph.hiddenOf X A C w0 c0 w1 c1) w c) p q (rowAt t p) rfl]
  exact Cert.Graph.lin_hiddenOf_congr (rowAt t) x0 x1 x2 X A C w0 c0 w1 c1 w c h0 h1 h2 p q

/-- The same through the second output's window. -/
theorem nbrOutBlock (t : Fin cfg0.N) (X A : S2000000x3.Idx → EReal) (C : S2000000x1.Idx → EReal)
    (W0 : S16x3.Idx → EReal) (b0 : S16.Idx → EReal) (W1 : S16x3.Idx → EReal) (b1 : S16.Idx → EReal)
    (W : S3x16.Idx → EReal) (b : S3.Idx → EReal)
    (x0 x1 : S4000x3.Idx → EReal) (x2 : S4000x1.Idx → EReal)
    (w0 : S16x3.Idx → EReal) (c0 : S16.Idx → EReal) (w1 : S16x3.Idx → EReal) (c1 : S16.Idx → EReal)
    (w : S3x16.Idx → EReal) (c : S3.Idx → EReal)
    (h0 : ∀ (p : Fin 4000) (k : Fin 3), x0 (ix2 p k) = X (ix2 (rowAt t p) k))
    (h1 : ∀ (p : Fin 4000) (k : Fin 3), x1 (ix2 p k) = A (ix2 (rowAt t p) k))
    (h2 : ∀ p : Fin 4000, x2 (ix2 p (0 : Fin 1)) = C (ix2 (rowAt t p) (0 : Fin 1)))
    (e0 : w0 = W0) (e1 : c0 = b0) (e2 : w1 = W1) (e3 : c1 = b1) (e4 : w = W) (e5 : c = b) :
    (cfg0.win 12).cut (grid0.coords t) (Cert.Graph.lin (Cert.Graph.hiddenOf x0 x1 x2 w0 c0 w1 c1) w c)
      = ((cfg0.win 12).blk t).view.read (Elt Ideal) (Cert.Graph.lin (Cert.Graph.hiddenOf X A C W0 b0 W1 b1) W b) := by
  subst e0 e1 e2 e3 e4 e5
  funext y
  obtain ⟨p, q, rfl⟩ : ∃ (p : Fin 4000) (q : Fin 3), y = ix2 p q := ⟨y 0, y 1, eq_ix2 y⟩
  rw [nbrOutRows t (Cert.Graph.lin (Cert.Graph.hiddenOf X A C w0 c0 w1 c1) w c) p q (rowAt t p) rfl]
  exact Cert.Graph.lin_hiddenOf_congr (rowAt t) x0 x1 x2 X A C w0 c0 w1 c1 w c h0 h1 h2 p q

/-! ## What each point writes back, and the two arrays after the region -/

/-- Point t writes back, to the first output, rows 4000·t … 4000·t + 3999 of the output layer's node term of the hidden
    layer. -/
theorem flushedNode (c : Dev nD) (t : Fin cfg0.N) :
    (dats (F := Ideal) m 0 c).flushed 11 t
      = ((cfg0.win 11).blk t).view.read (Elt Ideal) (Cert.Graph.lin (hid m c) (V m c main_arg6) (V m c main_arg7)) := by
  show (cfg0.win 11).cut (grid0.coords t) ((dats m 0 c).after 11 t) = _
  rw [after0_11 m c t,
    nodeOut_eq (iblk m c 0 t) (iblk m c 1 t) (iblk m c 2 t) (iblk m c 3 t) (iblk m c 4 t) (iblk m c 5 t) (iblk m c 6 t)
      (iblk m c 7 t) (iblk m c 8 t) (iblk m c 9 t) (iblk m c 10 t)]
  unfold hid
  exact nodeOutBlock t (V m c main_arg0) (V m c main_v32) (V m c main_v49) (V m c main_arg2) (V m c main_arg3)
    (V m c main_arg4) (V m c main_arg5) (V m c main_arg6) (V m c main_arg7) (iblk m c 0 t) (iblk m c 1 t) (iblk m c 2 t)
    (iblk m c 3 t) (iblk m c 4 t) (iblk m c 5 t) (iblk m c 6 t) (iblk m c 7 t) (iblk m c 8 t)
    (fun p k => (congrFun (iblk0 m c t) (ix2 p k)).trans (vertexRows t (V m c main_arg0) p k (rowAt t p) rfl))
    (fun p k => (congrFun (iblk1 m c t) (ix2 p k)).trans (nbrRows t (V m c main_v32) p k (rowAt t p) rfl))
    (fun p => (congrFun (iblk2 m c t) (ix2 p (0 : Fin 1))).trans
      (countRows t (V m c main_v49) p (0 : Fin 1) (rowAt t p) rfl))
    ((iblk3 m c t).trans (whole3 t (V m c main_arg2))) ((iblk4 m c t).trans (whole4 t (V m c main_arg3)))
    ((iblk5 m c t).trans (whole5 t (V m c main_arg4))) ((iblk6 m c t).trans (whole6 t (V m c main_arg5)))
    ((iblk7 m c t).trans (whole7 t (V m c main_arg6))) ((iblk8 m c t).trans (whole8 t (V m c main_arg7)))

/-- Point t writes back, to the second output, rows 4000·t … 4000·t + 3999 of the output layer's neighbour projection of
    the hidden layer. -/
theorem flushedNbr (c : Dev nD) (t : Fin cfg0.N) :
    (dats (F := Ideal) m 0 c).flushed 12 t
      = ((cfg0.win 12).blk t).view.read (Elt Ideal) (Cert.Graph.lin (hid m c) (V m c main_arg8) (V m c main_arg9)) := by
  show (cfg0.win 12).cut (grid0.coords t) ((dats m 0 c).after 12 t) = _
  rw [after0_12 m c t,
    nbrOut_eq (iblk m c 0 t) (iblk m c 1 t) (iblk m c 2 t) (iblk m c 3 t) (iblk m c 4 t) (iblk m c 5 t) (iblk m c 6 t)
      (iblk m c 7 t) (iblk m c 8 t) (iblk m c 9 t) (iblk m c 10 t)]
  unfold hid
  exact nbrOutBlock t (V m c main_arg0) (V m c main_v32) (V m c main_v49) (V m c main_arg2) (V m c main_arg3)
    (V m c main_arg4) (V m c main_arg5) (V m c main_arg8) (V m c main_arg9) (iblk m c 0 t) (iblk m c 1 t) (iblk m c 2 t)
    (iblk m c 3 t) (iblk m c 4 t) (iblk m c 5 t) (iblk m c 6 t) (iblk m c 9 t) (iblk m c 10 t)
    (fun p k => (congrFun (iblk0 m c t) (ix2 p k)).trans (vertexRows t (V m c main_arg0) p k (rowAt t p) rfl))
    (fun p k => (congrFun (iblk1 m c t) (ix2 p k)).trans (nbrRows t (V m c main_v32) p k (rowAt t p) rfl))
    (fun p => (congrFun (iblk2 m c t) (ix2 p (0 : Fin 1))).trans
      (countRows t (V m c main_v49) p (0 : Fin 1) (rowAt t p) rfl))
    ((iblk3 m c t).trans (whole3 t (V m c main_arg2))) ((iblk4 m c t).trans (whole4 t (V m c main_arg3)))
    ((iblk5 m c t).trans (whole5 t (V m c main_arg4))) ((iblk6 m c t).trans (whole6 t (V m c main_arg5)))
    ((iblk9 m c t).trans (whole9 t (V m c main_arg8))) ((iblk10 m c t).trans (whole10 t (V m c main_arg9)))

/-- The first output array after the region: the output layer's node term of the hidden layer. -/
theorem final11 (c : Dev nD) :
    (dats (F := Ideal) m 0 c).arrAt 11 cfg0.N = Cert.Graph.lin (hid m c) (V m c main_arg6) (V m c main_arg7) :=
  (dats (F := Ideal) m 0 c).arrAt_eq_of_cover 11 (Cert.Graph.lin (hid m c) (V m c main_arg6) (V m c main_arg7))
    (fun t _ => flushedNode m c t) Cover.cover11

/-- The second output array after the region: the output layer's neighbour projection of the hidden layer. -/
theorem final12 (c : Dev nD) :
    (dats (F := Ideal) m 0 c).arrAt 12 cfg0.N = Cert.Graph.lin (hid m c) (V m c main_arg8) (V m c main_arg9) :=
  (dats (F := Ideal) m 0 c).arrAt_eq_of_cover 12 (Cert.Graph.lin (hid m c) (V m c main_arg8) (V m c main_arg9))
    (fun t _ => flushedNbr m c t) Cover.cover12

end Cert.KernelIdeal.Blocks
end
-- ==== Proof.LibGraphConvHost.lean ====
/-
  The host's operations of a graph-convolution layer read as the entry-by-entry functions of LibGraphConv.

  * `host_nbr`: two accumulating row scatters of gathered rows — onto z, at the s-words, the rows the t-words name;
    then, at the t-words, the rows the s-words name — are `nbr`.
  * `host_cnt`: the same two scatters of a column of ones onto a column of zeros are `cnt`.
  * `host_lin`: a product with the transposed weight plus the bias repeated along the rows is `lin`.
  * `host_relu`: the maximum with a splat zero is the entry-by-entry maximum with 0; `host_zero`: a splat zero.
-/
import Idealize.ShloMosaic.PureOps.Ideal
import Idealize.ShloMosaic.PureOps.Contract
import Idealize.ShloMosaic.Lib.ValueIdx
import Idealize.ShloMosaic.Lib.ValueLayout
import proofs.«135806_j90297392431231_2_alg».proof.Proof.LibNodeScatter
import proofs.«135806_j90297392431231_2_alg».proof.Proof.LibHostRead
import proofs.«135806_j90297392431231_2_alg».proof.Proof.LibPlainDot
import Idealize.ShloMosaic.Lib.IdealHost
import Idealize.ShloMosaic.Lib.Pipeline.Value
import Idealize.ShloMosaic.PureOps.Ideal.Laws
import proofs.«135806_j90297392431231_2_alg».proof.Proof.LibGraphConv

noncomputable section
open scoped BigOperators
namespace Cert.Graph

open Idealize.ShloMosaic Idealize.ShloMosaic.ValueIdx Cert.LibNodes Cert.LibHostRead

variable {N E w : Nat}

/-- A splat of the zero pattern is zero everywhere. -/
theorem host_zero {S : Shape} (hb : (⟨0, ![]⟩ : Shape).BroadcastsInDim S ![]) :
    broadcastInDim S ![] hb (constant (F := Ideal) ⟨0, ![]⟩ .f32 0x00000000#32) = fun _ => (0 : EReal) := by
  funext i
  rw [bid_scalar_apply]
  show Ideal.ofBits .f32 0x00000000#32 = 0
  exact Ideal.ofBits_zero_f32

/-- The maximum with a splat zero. -/
theorem host_relu {S : Shape} (hb : (⟨0, ![]⟩ : Shape).BroadcastsInDim S ![]) (x : FVec Ideal S .f32) :
    maximumf x (broadcastInDim S ![] hb (constant (F := Ideal) ⟨0, ![]⟩ .f32 0x00000000#32)) = fun i => max (x i) 0 := by
  rw [host_zero]
  rfl

/-- Two accumulating scatters of gathered rows are the rows passed along the edges both ways. -/
theorem host_nbr {D : Nat} (hN : 0 < N)
    (d : ScatterDims ⟨2, ![N, D]⟩ ⟨2, ![E, 1]⟩ ⟨2, ![E, D]⟩) (g : GatherDims ⟨2, ![N, D]⟩ ⟨2, ![E, 1]⟩ ⟨2, ![E, D]⟩)
    {wf : ScatterDims.WF ⟨2, ![N, D]⟩ ⟨2, ![E, 1]⟩ ⟨2, ![E, D]⟩ [1] [0] [0] 1}
    {wfg : GatherDims.WF ⟨2, ![N, D]⟩ ⟨2, ![E, 1]⟩ ⟨2, ![E, D]⟩ [1] [0] [] [0] [] 1 ![1, D]}
    (hd : d = nodeScatterDims N D E wf) (hg : g = nodeGatherDims N D E wfg)
    (s t : IVec ⟨2, ![E, 1]⟩ w) (z X : FVec Ideal ⟨2, ![N, D]⟩ .f32) :
    Host.scatterAdd d (Host.scatterAdd d z s (Host.gather g X t)) t (Host.gather g X s) = nbr hN s t z X := by
  subst hd hg
  funext i
  obtain ⟨n, q, rfl⟩ : ∃ (n : Fin N) (q : Fin D), i = ix2 n q := ⟨i 0, i 1, eq_ix2 i⟩
  show Ideal.hostScatterAdd (nodeScatterDims N D E wf)
      (Ideal.hostScatterAdd (nodeScatterDims N D E wf) z s (Host.gather (nodeGatherDims N D E wfg) X t)) t
      (Host.gather (nodeGatherDims N D E wfg) X s) (ix2 n q) = _
  rw [hostScatterAdd_nodes_apply, hostScatterAdd_nodes_apply]
  exact congrArg₂ (· + ·)
    (congrArg (z (ix2 n q) + ·) (Finset.sum_congr rfl fun e _ =>
      if_congr Iff.rfl (gather_nodes_apply hN wfg X t e q) rfl))
    (Finset.sum_congr rfl fun e _ => if_congr Iff.rfl (gather_nodes_apply hN wfg X s e q) rfl)

/-- Two accumulating scatters of a column of ones onto a column of zeros count the edge ends. -/
theorem host_cnt (d : ScatterDims ⟨2, ![N, 1]⟩ ⟨2, ![E, 1]⟩ ⟨2, ![E, 1]⟩)
    {wf : ScatterDims.WF ⟨2, ![N, 1]⟩ ⟨2, ![E, 1]⟩ ⟨2, ![E, 1]⟩ [1] [0] [0] 1} (hd : d = nodeScatterDims N 1 E wf)
    (hbz : (⟨0, ![]⟩ : Shape).BroadcastsInDim ⟨2, ![N, 1]⟩ ![]) (hbo : (⟨0, ![]⟩ : Shape).BroadcastsInDim ⟨2, ![E, 1]⟩ ![])
    (s t : IVec ⟨2, ![E, 1]⟩ w) :
    Host.scatterAdd (F := Ideal) (φ := .f32) d
        (Host.scatterAdd d (broadcastInDim ⟨2, ![N, 1]⟩ ![] hbz (constant (F := Ideal) ⟨0, ![]⟩ .f32 0x00000000#32)) s
          (broadcastInDim ⟨2, ![E, 1]⟩ ![] hbo (constant (F := Ideal) ⟨0, ![]⟩ .f32 0x3F800000#32)))
        t (broadcastInDim ⟨2, ![E, 1]⟩ ![] hbo (constant (F := Ideal) ⟨0, ![]⟩ .f32 0x3F800000#32))
      = cnt s t := by
  subst hd
  funext i
  obtain ⟨n, u, rfl⟩ : ∃ (n : Fin N) (u : Fin 1), i = ix2 n u := ⟨i 0, i 1, eq_ix2 i⟩
  have h1 : ∀ j, broadcastInDim ⟨2, ![E, 1]⟩ ![] hbo (constant (F := Ideal) ⟨0, ![]⟩ .f32 0x3F800000#32) j = (1 : EReal) :=
    fun j => (bid_scalar_apply _ hbo j).trans Ideal.ofBits_one_f32
  have h0 : ∀ j, broadcastInDim ⟨2, ![N, 1]⟩ ![] hbz (constant (F := Ideal) ⟨0, ![]⟩ .f32 0x00000000#32) j = (0 : EReal) :=
    fun j => (bid_scalar_apply _ hbz j).trans Ideal.ofBits_zero_f32
  show Ideal.hostScatterAdd (nodeScatterDims N 1 E wf)
      (Ideal.hostScatterAdd (nodeScatterDims N 1 E wf) _ s _) t _ (ix2 n u) = _
  rw [hostScatterAdd_nodes_apply, hostScatterAdd_nodes_apply]
  simp only [h1, h0]
  rfl

/-- The host's affine layer: the product with the transposed weight plus the bias repeated along the rows. -/
theorem host_lin {K J : Nat} (d : DotDims ⟨2, ![N, K]⟩ ⟨2, ![K, J]⟩ ⟨2, ![N, J]⟩) (hd : PlainDot d)
    (ht : (⟨2, ![J, K]⟩ : Shape).Transposes [1, 0] ⟨2, ![K, J]⟩)
    (hb1 : (⟨1, ![J]⟩ : Shape).BroadcastsInDim ⟨2, ![1, J]⟩ ![1])
    (hb2 : (⟨2, ![1, J]⟩ : Shape).BroadcastsInDim ⟨2, ![N, J]⟩ ![0, 1])
    (X : FVec Ideal ⟨2, ![N, K]⟩ .f32) (W : FVec Ideal ⟨2, ![J, K]⟩ .f32) (b : FVec Ideal ⟨1, ![J]⟩ .f32) :
    addf (Host.dotGeneral d none X (transpose ⟨2, ![K, J]⟩ [1, 0] W ht))
        (broadcastInDim ⟨2, ![N, J]⟩ ![0, 1] hb2 (broadcastInDim ⟨2, ![1, J]⟩ ![1] hb1 b))
      = lin X W b := by
  funext i
  obtain ⟨p, j, rfl⟩ : ∃ (p : Fin N) (j : Fin J), i = ix2 p j := ⟨i 0, i 1, eq_ix2 i⟩
  show Host.dotGeneral d none X (transpose ⟨2, ![K, J]⟩ [1, 0] W ht) (ix2 p j)
      + broadcastInDim ⟨2, ![N, J]⟩ ![0, 1] hb2 (broadcastInDim ⟨2, ![1, J]⟩ ![1] hb1 b) (ix2 p j) = _
  rw [Cert.LibPlainDot.hdot_apply d hd, bid_1b_ab_apply, bid_b_1b_apply]
  refine congrArg₂ (· + ·) (Finset.sum_congr rfl fun k _ => congrArg (X (ix2 p k) * ·) ?_) rfl
  exact transpose_apply [1, 0] W ht (ix2 k j) (ix2 j k) (fun a => match a with
    | ⟨0, _⟩ => rfl
    | ⟨1, _⟩ => rfl)

end Cert.Graph
end
-- ==== Proof.KernelHost.lean ====
/-
  The host operations of the kernel's program around its region, read as the functions of LibGraphConv.

  Before the region: the two index columns (`srcCol`, `dstCol`: the two columns of the edge list, negative words
  wrapped), the raw vertex rows passed along the edges both ways from zero (`vagg_eq`) and the edge ends counted
  (`deg_eq`). After the region: the second output's rows passed along the edges both ways and accumulated onto the
  first output (`tail_eq`).
-/
import proofs.«135806_j90297392431231_2_alg».proof.Proof.Gen.KernelIdeal.Frame
import proofs.«135806_j90297392431231_2_alg».proof.Proof.LibGraphConv
import proofs.«135806_j90297392431231_2_alg».proof.Proof.LibGraphConvHost
import Idealize.ShloMosaic.Lib.StableHlo.Run
import Idealize.ShloMosaic.Lib.Pipeline.Value

noncomputable section
open scoped BigOperators
namespace Cert.KernelIdeal.HostSide

open Idealize.ShloMosaic Idealize.ShloMosaic.TcCoe Idealize.SL.Sem Cert.KernelIdeal Cert.KernelIdeal.Gen
open Cert.KernelIdeal.Facts₀ Cert.KernelIdeal.Facts

variable (m : (ℓ : Loc nD τ sig) → Buf (Elt Ideal) ℓ)

theorem hN : 0 < 2000000 := by norm_num

/-- The source ends of the edges as a column of node words. -/
def srcCol (edges : IVec S6000000x2 32) : IVec S6000000x1 32 :=
  Cert.Graph.endCol 2000000 6000000 0 edges Facts₀.slices_S6000000x2_S6000000x1_0_0 Facts₀.shapeCasts_S6000000x1_S6000000
    Facts₀.bcast_S_S6000000 Facts₀.bcast_S6000000_S6000000x1_0

/-- The target ends of the edges as a column of node words. -/
def dstCol (edges : IVec S6000000x2 32) : IVec S6000000x1 32 :=
  Cert.Graph.endCol 2000000 6000000 1 edges Facts₀.slices_S6000000x2_S6000000x1_0_1 Facts₀.shapeCasts_S6000000x1_S6000000
    Facts₀.bcast_S_S6000000 Facts₀.bcast_S6000000_S6000000x1_0

/-- The accumulated neighbour rows the region is launched on. -/
theorem vagg_eq (c : Dev nD) :
    V m c main_v32 = Cert.Graph.nbr hN (srcCol (m ((c.tc : Thread nD τ).loc main_arg1)))
      (dstCol (m ((c.tc : Thread nD τ).loc main_arg1))) (fun _ => 0) (m ((c.tc : Thread nD τ).loc main_arg0)) := by
  show StableHlo.after hostOps0 (fun b => m (c, b)) (Proc.devRef .tc main_v32) = _
  after_results_simp
  rw [Cert.Graph.host_zero Gen.bcast_S_S2000000x3]
  exact Cert.Graph.host_nbr hN scatter_S2000000x3_S6000000x1_S6000000x3_1_0_0_1
    gather_S2000000x3_S6000000x1_S6000000x3_1_0_n_n_0_1_13 rfl rfl
    (srcCol (m ((c.tc : Thread nD τ).loc main_arg1))) (dstCol (m ((c.tc : Thread nD τ).loc main_arg1)))
    (fun _ => 0) (m ((c.tc : Thread nD τ).loc main_arg0))

/-- The edge-count column the region is launched on. -/
theorem deg_eq (c : Dev nD) :
    V m c main_v49 = Cert.Graph.cnt (srcCol (m ((c.tc : Thread nD τ).loc main_arg1)))
      (dstCol (m ((c.tc : Thread nD τ).loc main_arg1))) := by
  show StableHlo.after hostOps0 (fun b => m (c, b)) (Proc.devRef .tc main_v49) = _
  after_results_simp
  exact Cert.Graph.host_cnt scatter_S2000000x1_S6000000x1_S6000000x1_1_0_0_1 rfl Gen.bcast_S_S2000000x1
    Gen.bcast_S_S6000000x1
    (srcCol (m ((c.tc : Thread nD τ).loc main_arg1))) (dstCol (m ((c.tc : Thread nD τ).loc main_arg1)))

/-! ## After the region

The operations after the region read four buffers they do not write: the two flattened columns of the edge list, which
the operations before the region wrote and the region does not touch, and the region's two output arrays. -/

/-- The first column of the edge list, flattened, as the operations before the region leave it. -/
private theorem flat0_before (c : Dev nD) :
    V0 m c (Proc.devRef .tc main_v1)
      = shapeCast S6000000 (extractStridedSlice S6000000x1 ![0, 0] (m ((c.tc : Thread nD τ).loc main_arg1))
          Gen.slices_S6000000x2_S6000000x1_0_0) Gen.shapeCasts_S6000000x1_S6000000 := by
  show StableHlo.after hostOps0 (fun b => m (c, b)) (Proc.devRef .tc main_v1) = _
  after_results_simp
  rfl

/-- The second column of the edge list, flattened, as the operations before the region leave it. -/
private theorem flat1_before (c : Dev nD) :
    V0 m c (Proc.devRef .tc main_v3)
      = shapeCast S6000000 (extractStridedSlice S6000000x1 ![0, 1] (m ((c.tc : Thread nD τ).loc main_arg1))
          Gen.slices_S6000000x2_S6000000x1_0_1) Gen.shapeCasts_S6000000x1_S6000000 := by
  show StableHlo.after hostOps0 (fun b => m (c, b)) (Proc.devRef .tc main_v3) = _
  after_results_simp
  rfl

/-- The region leaves the first flattened column alone: it is no window's array. -/
private theorem flat0_after (c : Dev nD) :
    Pipeline.withArrays (cfgs 0).spec c (V0 m c) (fun w => (dats (F := Ideal) m 0 c).arrAt w (cfgs 0).N)
        (Proc.devRef .tc main_v1)
      = shapeCast S6000000 (extractStridedSlice S6000000x1 ![0, 0] (m ((c.tc : Thread nD τ).loc main_arg1))
          Gen.slices_S6000000x2_S6000000x1_0_0) Gen.shapeCasts_S6000000x1_S6000000 := by
  rw [Pipeline.withArrays_of_ne _ c (V0 m c) _ main_v1 (by exact (by decide : ∀ w, Pipeline.arrRef spec0 w ≠ main_v1))]
  exact flat0_before m c

/-- The region leaves the second flattened column alone: it is no window's array. -/
private theorem flat1_after (c : Dev nD) :
    Pipeline.withArrays (cfgs 0).spec c (V0 m c) (fun w => (dats (F := Ideal) m 0 c).arrAt w (cfgs 0).N)
        (Proc.devRef .tc main_v3)
      = shapeCast S6000000 (extractStridedSlice S6000000x1 ![0, 1] (m ((c.tc : Thread nD τ).loc main_arg1))
          Gen.slices_S6000000x2_S6000000x1_0_1) Gen.shapeCasts_S6000000x1_S6000000 := by
  rw [Pipeline.withArrays_of_ne _ c (V0 m c) _ main_v3 (by exact (by decide : ∀ w, Pipeline.arrRef spec0 w ≠ main_v3))]
  exact flat1_before m c

/-- The region's first output is window 11's array. -/
private theorem out0_after (c : Dev nD) :
    Pipeline.withArrays (cfgs 0).spec c (V0 m c) (fun w => (dats (F := Ideal) m 0 c).arrAt w (cfgs 0).N)
        (Proc.devRef .tc main_v50_0)
      = (dats (F := Ideal) m 0 c).arrAt 11 cfg0.N :=
  Pipeline.withArrays_arr spec0 launch0.win.arr_inj c _ _ 11

/-- The region's second output is window 12's array. -/
private theorem out1_after (c : Dev nD) :
    Pipeline.withArrays (cfgs 0).spec c (V0 m c) (fun w => (dats (F := Ideal) m 0 c).arrAt w (cfgs 0).N)
        (Proc.devRef .tc main_v50_1)
      = (dats (F := Ideal) m 0 c).arrAt 12 cfg0.N :=
  Pipeline.withArrays_arr spec0 launch0.win.arr_inj c _ _ 12

/-- The program's result: the region's second output passed along the edges both ways, accumulated onto its first. -/
theorem tail_eq (c : Dev nD) :
    Pipeline.afterTail₀ cfgs (dats (F := Ideal) m) 0 (V0 m) [hostOps1] c main_v78
      = Cert.Graph.nbr hN (srcCol (m ((c.tc : Thread nD τ).loc main_arg1)))
          (dstCol (m ((c.tc : Thread nD τ).loc main_arg1)))
          ((dats (F := Ideal) m 0 c).arrAt 11 cfg0.N) ((dats (F := Ideal) m 0 c).arrAt 12 cfg0.N) := by
  unfold Pipeline.afterTail₀
  show StableHlo.after hostOps1 _ (Proc.devRef .tc main_v78) = _
  after_results_simp
  rw [flat0_after m c, flat1_after m c, out0_after m c, out1_after m c]
  exact Cert.Graph.host_nbr hN scatter_S2000000x3_S6000000x1_S6000000x3_1_0_0_1
    gather_S2000000x3_S6000000x1_S6000000x3_1_0_n_n_0_1_13 rfl rfl
    (srcCol (m ((c.tc : Thread nD τ).loc main_arg1))) (dstCol (m ((c.tc : Thread nD τ).loc main_arg1)))
    ((dats (F := Ideal) m 0 c).arrAt 11 cfg0.N) ((dats (F := Ideal) m 0 c).arrAt 12 cfg0.N)

end Cert.KernelIdeal.HostSide
end
-- ==== Proof.RefValue.lean ====
/-
  The reference's result as the functions of LibGraphConv.

  Its program is two graph-convolution layers written with the host's operations: an affine map as a product with the
  transposed weight plus the bias repeated along the rows, the rows passed along the edges as two accumulating
  scatters of gathered rows from zero, a rectifier as the maximum with a splat zero. Each is the entry-by-entry
  function of LibGraphConvHost, so the composed term of the run is `outRef` of `hiddenRef`.
-/
import proofs.«135806_j90297392431231_2_alg».proof.Proof.Gen.ReferenceIdeal.Run
import proofs.«135806_j90297392431231_2_alg».proof.Proof.LibGraphConv
import proofs.«135806_j90297392431231_2_alg».proof.Proof.LibGraphConvHost
import proofs.«135806_j90297392431231_2_alg».proof.Proof.LibHostRead
import proofs.«135806_j90297392431231_2_alg».proof.Proof.LibPlainDot

noncomputable section
open scoped BigOperators
namespace Cert.ReferenceIdeal.RefValue

open Idealize.ShloMosaic Idealize.ShloMosaic.TcCoe Idealize.SL.Sem Cert.ReferenceIdeal Cert.ReferenceIdeal.Gen
open Cert.ReferenceIdeal.Facts

variable (m : (ℓ : Loc nD τ sig) → Buf (Elt Ideal) ℓ)

theorem hN : 0 < 2000000 := by norm_num

/-- The source ends of the edges as a column of node words. -/
def srcCol (edges : IVec S6000000x2 32) : IVec S6000000x1 32 :=
  Cert.Graph.endCol 2000000 6000000 0 edges slices_S6000000x2_S6000000x1_0_0 shapeCasts_S6000000x1_S6000000
    bcast_S_S6000000 bcast_S6000000_S6000000x1_0

/-- The target ends of the edges as a column of node words. -/
def dstCol (edges : IVec S6000000x2 32) : IVec S6000000x1 32 :=
  Cert.Graph.endCol 2000000 6000000 1 edges slices_S6000000x2_S6000000x1_0_1 shapeCasts_S6000000x1_S6000000
    bcast_S_S6000000 bcast_S6000000_S6000000x1_0

/-- The reference's result is the output layer of the hidden layer, the reference's way. -/
theorem res_eq (c : Dev nD) :
    Cert.ReferenceIdeal.Value.res_main_v88 (F := Ideal) m c
      = Cert.Graph.outRef hN (srcCol (m ((c.tc : Thread nD τ).loc main_arg1))) (dstCol (m ((c.tc : Thread nD τ).loc main_arg1)))
          (Cert.Graph.hiddenRef hN (srcCol (m ((c.tc : Thread nD τ).loc main_arg1))) (dstCol (m ((c.tc : Thread nD τ).loc main_arg1)))
            (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)))
          (m ((c.tc : Thread nD τ).loc main_arg6)) (m ((c.tc : Thread nD τ).loc main_arg7))
          (m ((c.tc : Thread nD τ).loc main_arg8)) (m ((c.tc : Thread nD τ).loc main_arg9)) := by
  have hd1 : Cert.LibHostRead.PlainDot dot_S2000000x3_S3x16_S2000000x16_1_0_0_1_n_n :=
    Cert.LibPlainDot.plainDot_plain 2000000 3 16
  have hd2 : Cert.LibHostRead.PlainDot dot_S2000000x16_S16x3_S2000000x3_1_0_0_1_n_n :=
    Cert.LibPlainDot.plainDot_plain 2000000 16 3
  unfold Cert.ReferenceIdeal.Value.res_main_v88
  simp only [Cert.Graph.host_lin dot_S2000000x3_S3x16_S2000000x16_1_0_0_1_n_n hd1 transposes_S16x3_S3x16_1_0
      bcast_S16_S1x16_1 bcast_S1x16_S2000000x16_0_1,
    Cert.Graph.host_lin dot_S2000000x16_S16x3_S2000000x3_1_0_0_1_n_n hd2 transposes_S3x16_S16x3_1_0
      bcast_S3_S1x3_1 bcast_S1x3_S2000000x3_0_1,
    Cert.Graph.host_nbr hN scatter_S2000000x16_S6000000x1_S6000000x16_1_0_0_1
      gather_S2000000x16_S6000000x1_S6000000x16_1_0_n_n_0_1_116 rfl rfl,
    Cert.Graph.host_nbr hN scatter_S2000000x3_S6000000x1_S6000000x3_1_0_0_1
      gather_S2000000x3_S6000000x1_S6000000x3_1_0_n_n_0_1_13 rfl rfl,
    Cert.Graph.host_relu bcast_S_S2000000x16, Cert.Graph.host_zero bcast_S_S2000000x16,
    Cert.Graph.host_zero bcast_S_S2000000x3]
  unfold Cert.Graph.outRef Cert.Graph.hiddenRef
  rfl

end Cert.ReferenceIdeal.RefValue
end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«135806_j90297392431231_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  The precondition read back: every float input is real-valued.

  The printed precondition is the conjunction, by `and` of one-bit words, of one test per float input,
  jnp.all(|x| < inf); it answered 1, so every conjunct answered 1, and each conjunct makes its input real-valued.
-/
import proofs.«135806_j90297392431231_2_alg».proof.Proof.Gen.Pre_finite_inputs
import proofs.«135806_j90297392431231_2_alg».proof.Proof.LibRealValued
import proofs.«135806_j90297392431231_2_alg».proof.Proof.LibFiniteTest
import Idealize.ShloMosaic.Lib.ReduceAll

noncomputable section
open scoped BigOperators
namespace Cert.Finite

open Idealize.ShloMosaic Cert.Lib.RealValued Cert.Pre_finite_inputs

/-- The precondition answered 1: all nine float inputs are real-valued. -/
theorem allReal_of_pre (a0 : FVec Ideal S2000000x3 .f32) (a1 : IVec S6000000x2 32) (a2 : FVec Ideal S16x3 .f32)
    (a3 : FVec Ideal S16 .f32) (a4 : FVec Ideal S16x3 .f32) (a5 : FVec Ideal S16 .f32) (a6 : FVec Ideal S3x16 .f32)
    (a7 : FVec Ideal S3 .f32) (a8 : FVec Ideal S3x16 .f32) (a9 : FVec Ideal S3 .f32)
    (h : Cert.Pre_finite_inputs.fn (F := Ideal) a0 a1 a2 a3 a4 a5 a6 a7 a8 a9 = fun _ => 1#1) :
    AllReal a0 ∧ AllReal a2 ∧ AllReal a3 ∧ AllReal a4 ∧ AllReal a5 ∧ AllReal a6 ∧ AllReal a7 ∧ AllReal a8 ∧ AllReal a9 := by
  -- the scalar shape has one index
  haveI : Subsingleton S_.Idx := ⟨fun a b => funext fun d => d.elim0⟩
  have h0 := congrFun h (fun d => d.elim0 : S_.Idx)
  dsimp only [fn, fn_part1, fn_part2] at h0
  -- the nine tests are joined, left-nested, by `and` of one-bit words: each one answered 1
  simp only [Idealize.ShloMosaic.andi, IntOp.andi_eq_one] at h0
  obtain ⟨⟨⟨⟨⟨⟨⟨⟨e0, e2⟩, e3⟩, e4⟩, e5⟩, e6⟩, e7⟩, e8⟩, e9⟩ := h0
  exact ⟨Cert.Lib.FiniteTest.allReal_of_all a0 _ _ _ _ _ _ e0,
    Cert.Lib.FiniteTest.allReal_of_all a2 _ _ _ _ _ _ e2,
    Cert.Lib.FiniteTest.allReal_of_all a3 _ _ _ _ _ _ e3,
    Cert.Lib.FiniteTest.allReal_of_all a4 _ _ _ _ _ _ e4,
    Cert.Lib.FiniteTest.allReal_of_all a5 _ _ _ _ _ _ e5,
    Cert.Lib.FiniteTest.allReal_of_all a6 _ _ _ _ _ _ e6,
    Cert.Lib.FiniteTest.allReal_of_all a7 _ _ _ _ _ _ e7,
    Cert.Lib.FiniteTest.allReal_of_all a8 _ _ _ _ _ _ e8,
    Cert.Lib.FiniteTest.allReal_of_all a9 _ _ _ _ _ _ e9⟩

end Cert.Finite
end
-- ==== Proof.lean ====
/-
  Two graph-convolution layers on 2,000,000 nodes and 6,000,000 undirected edges: the fused kernel against the
  plain reference, on the extended reals.

  The reference projects every node's row through W1 (an affine map) and then passes the projected rows along the
  edges, for each of its two layers. The kernel's program passes the RAW vertex rows along the edges on the host,
  counts the edge ends at each node, and inside its region projects once per node:
      (Σ over received edges of v) · W1ᵀ + (number of received edges) · b1  =  Σ over received edges of (v · W1ᵀ + b1),
  which is distributivity and an exchange of finite sums and therefore needs real entries — the precondition
  "every float input is finite" gives them (Finite). The region computes, block of 4000 rows by block, the rectified
  hidden layer and the two affine terms of the output layer (KernelBody, KernelBlocks); the host then passes the second
  term along the edges and accumulates it ONTO the first, where the reference accumulates from zero and adds: the same
  sum, re-associated (LibGraphConvLaw).

  LibGraphConv states both arrangements entry by entry; LibGraphConvHost reads the host's operations as those functions;
  KernelHost and RefValue apply that to the two programs; here the pieces are assembled into the five claims.
-/
import proofs.«135806_j90297392431231_2_alg».proof.Defs
import proofs.«135806_j90297392431231_2_alg».proof.Proof.Gen.Kernel
import proofs.«135806_j90297392431231_2_alg».proof.Proof.Gen.Kernel.Frame
import proofs.«135806_j90297392431231_2_alg».proof.Proof.Gen.KernelIdeal
import proofs.«135806_j90297392431231_2_alg».proof.Proof.Gen.KernelIdeal.Frame
import proofs.«135806_j90297392431231_2_alg».proof.Proof.Gen.ReferenceIdeal
import proofs.«135806_j90297392431231_2_alg».proof.Proof.Gen.ReferenceIdeal.Run
import proofs.«135806_j90297392431231_2_alg».proof.Proof.Gen.Pre_finite_inputs
import proofs.«135806_j90297392431231_2_alg».proof.Proof.LibGraphConv
import proofs.«135806_j90297392431231_2_alg».proof.Proof.LibGraphConvLaw
import proofs.«135806_j90297392431231_2_alg».proof.Proof.KernelBlocks
import proofs.«135806_j90297392431231_2_alg».proof.Proof.KernelHost
import proofs.«135806_j90297392431231_2_alg».proof.Proof.RefValue
import proofs.«135806_j90297392431231_2_alg».proof.Proof.Finite
import proofs.«135806_j90297392431231_2_alg».proof.Proof.LibRealValued
import Idealize.ShloMosaic.Adequacy
import Idealize.ShloMosaic.Init

noncomputable section

namespace Cert.Proof

open Idealize.ShloMosaic Idealize.ShloMosaic.TcCoe Idealize.SL.Sem

/-! ## The two programs' results as functions of the ten arguments -/

section Results

open Cert.Lib.RealValued

variable (X : FVec Ideal ⟨2, ![2000000, 3]⟩ .f32) (e : IVec ⟨2, ![6000000, 2]⟩ 32)
  (W01 : FVec Ideal ⟨2, ![16, 3]⟩ .f32) (b01 : FVec Ideal ⟨1, ![16]⟩ .f32)
  (W11 : FVec Ideal ⟨2, ![16, 3]⟩ .f32) (b11 : FVec Ideal ⟨1, ![16]⟩ .f32)
  (W02 : FVec Ideal ⟨2, ![3, 16]⟩ .f32) (b02 : FVec Ideal ⟨1, ![3]⟩ .f32)
  (W12 : FVec Ideal ⟨2, ![3, 16]⟩ .f32) (b12 : FVec Ideal ⟨1, ![3]⟩ .f32)

/-- The kernel's program as a function of its arguments: the output layer, the kernel's way, of the hidden layer, the
    kernel's way. -/
def kerOf : (⟨2, ![2000000, 3]⟩ : Shape).Idx → EReal :=
  Cert.Graph.outKer Cert.KernelIdeal.HostSide.hN (Cert.KernelIdeal.HostSide.srcCol e) (Cert.KernelIdeal.HostSide.dstCol e)
    (Cert.Graph.hiddenKer Cert.KernelIdeal.HostSide.hN (Cert.KernelIdeal.HostSide.srcCol e) (Cert.KernelIdeal.HostSide.dstCol e)
      X W01 b01 W11 b11) W02 b02 W12 b12

/-- The reference as a function of its arguments: the output layer of the hidden layer, the reference's way. -/
def refOf : (⟨2, ![2000000, 3]⟩ : Shape).Idx → EReal :=
  Cert.Graph.outRef Cert.ReferenceIdeal.RefValue.hN (Cert.ReferenceIdeal.RefValue.srcCol e) (Cert.ReferenceIdeal.RefValue.dstCol e)
    (Cert.Graph.hiddenRef Cert.ReferenceIdeal.RefValue.hN (Cert.ReferenceIdeal.RefValue.srcCol e) (Cert.ReferenceIdeal.RefValue.dstCol e)
      X W01 b01 W11 b11) W02 b02 W12 b12

/-- For real vertex rows and a real first-layer neighbour weight and bias the two arrangements are one function: the
    hidden layers agree by the exchange of the projection with the edge sum, the output layers by associativity; the
    two programs' index columns are the same columns of the same edge list. -/
theorem kerOf_eq_refOf (hX : AllReal X) (hW : AllReal W11) (hb : AllReal b11) :
    kerOf X e W01 b01 W11 b11 W02 b02 W12 b12 = refOf X e W01 b01 W11 b11 W02 b02 W12 b12 := by
  unfold kerOf refOf
  rw [Cert.Graph.outKer_eq_outRef, Cert.Graph.hiddenKer_eq_hiddenRef _ _ _ _ _ _ _ _ hX hW hb]
  rfl

end Results

/-! ## The kernel's result -/

section KernelResult

open Cert.KernelIdeal Cert.KernelIdeal.Gen Cert.KernelIdeal.HostSide

variable (m : (ℓ : Loc Cert.KernelIdeal.nD Cert.KernelIdeal.τ Cert.KernelIdeal.sig) → Buf (Elt Ideal) ℓ)

/-- The host lines after the region leave the result buffer at `kerOf` of the arguments: the region's two output arrays
    are the output layer's two terms of the hidden layer over the arrays the region was launched on, and those arrays
    are the raw rows passed along the edges and the edge counts. -/
theorem tail_value (c : Dev nD) :
    Pipeline.afterTail₀ cfgs (dats (F := Ideal) m) 0 (V0 m) [hostOps1] c main_v78
      = kerOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [tail_eq, Cert.KernelIdeal.Blocks.final11, Cert.KernelIdeal.Blocks.final12]
  unfold Cert.KernelIdeal.Blocks.hid
  rw [vagg_eq, deg_eq, V_main_arg0, V_main_arg2, V_main_arg3, V_main_arg4, V_main_arg5, V_main_arg6, V_main_arg7,
    V_main_arg8, V_main_arg9]
  rfl

/-- The result buffer is unscoped and is no window's array. -/
theorem result_rest : main_v78 ∈ Pipeline.restRefs sig (cfgs 0).spec :=
  Pipeline.mem_restRefs_of main_v78 (by decide) (by decide)

/-- The edge list is unscoped and is no window's array. -/
theorem edges_rest : main_arg1 ∈ Pipeline.restRefs sig (cfgs 0).spec :=
  Pipeline.mem_restRefs_of main_arg1 (by decide) (by decide)

/-- The frame run's post read at the result buffer and at the ten arguments: the result buffer is no window's array,
    so it holds what the host lines after the region leave there; a staged argument ends as the region found it, which
    is as launched; the edge list, which no window stages, ends as the host lines leave it, untouched. -/
theorem kernel_post (r : PUnit × MemSt nD τ sig (Elt Ideal))
    (h : Pipeline.FramePost cfgs (dats (F := Ideal) m) 0 (Pipeline.afterTail₀ cfgs (dats (F := Ideal) m) 0 (V0 m) [hostOps1]) r)
    (c : Dev nD) :
    r.2.mem ((c.tc : Thread nD τ).loc main_v78)
        = kerOf (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_v78 result_rest).trans (tail_value m c),
    ((h c).1 0).trans (((dats m 0 c).arrAt_in 0 rfl _).trans ((A_eq m c 0).trans (V_main_arg0 m c))),
    ((h c).2 main_arg1 edges_rest).trans (W_main_arg1 m (dats m) c),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c))),
    ((h c).1 6).trans (((dats m 0 c).arrAt_in 6 rfl _).trans ((A_eq m c 6).trans (V_main_arg5 m c))),
    ((h c).1 7).trans (((dats m 0 c).arrAt_in 7 rfl _).trans ((A_eq m c 7).trans (V_main_arg6 m c))),
    ((h c).1 8).trans (((dats m 0 c).arrAt_in 8 rfl _).trans ((A_eq m c 8).trans (V_main_arg7 m c))),
    ((h c).1 9).trans (((dats m 0 c).arrAt_in 9 rfl _).trans ((A_eq m c 9).trans (V_main_arg8 m c))),
    ((h c).1 10).trans (((dats m 0 c).arrAt_in 10 rfl _).trans ((A_eq m c 10).trans (V_main_arg9 m c)))⟩

end KernelResult

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- `refOf` of equal arguments. -/
theorem refOf_congr {X X' : FVec Ideal ⟨2, ![2000000, 3]⟩ .f32} {e e' : IVec ⟨2, ![6000000, 2]⟩ 32}
    {W01 W01' : FVec Ideal ⟨2, ![16, 3]⟩ .f32} {b01 b01' : FVec Ideal ⟨1, ![16]⟩ .f32}
    {W11 W11' : FVec Ideal ⟨2, ![16, 3]⟩ .f32} {b11 b11' : FVec Ideal ⟨1, ![16]⟩ .f32}
    {W02 W02' : FVec Ideal ⟨2, ![3, 16]⟩ .f32} {b02 b02' : FVec Ideal ⟨1, ![3]⟩ .f32}
    {W12 W12' : FVec Ideal ⟨2, ![3, 16]⟩ .f32} {b12 b12' : FVec Ideal ⟨1, ![3]⟩ .f32}
    (h : X' = X ∧ e' = e ∧ W01' = W01 ∧ b01' = b01 ∧ W11' = W11 ∧ b11' = b11 ∧ W02' = W02 ∧ b02' = b02 ∧ W12' = W12 ∧ b12' = b12) :
    refOf X' e' W01' b01' W11' b11' W02' b02' W12' b12' = refOf X e W01 b01 W11 b11 W02 b02 W12 b12 := by
  obtain ⟨rfl, rfl, rfl, rfl, rfl, rfl, rfl, rfl, rfl, rfl⟩ := h
  rfl

/-- At the ideal reading both programs end with the same array: the kernel's run leaves `kerOf` of its arguments (the
    frame run, its post read at the result buffer and at the arguments), the reference's run leaves `refOf` of its
    arguments, the arguments agree, and the two functions agree on real inputs — which the precondition provides. -/
theorem algebraic : Cert.algebraic_KernelIdeal_ReferenceIdeal := by
  intro m ρ m' ρ' hpre hagree
  refine ⟨fun c => kerOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono (fun r h c => kernel_post m r h c) (Cert.KernelIdeal.Gen.run_main m ρ)
  · refine (θ_run Cert.ReferenceIdeal.defs _ _).mono (fun _ h c => ⟨(h c).1.trans ?_, (h c).2⟩)
      (Cert.ReferenceIdeal.Value.run (F := Ideal) m' ρ')
    have hr := Cert.Finite.allReal_of_pre _ _ _ _ _ _ _ _ _ _ (hpre c)
    exact (Cert.ReferenceIdeal.RefValue.res_eq m' c).trans ((refOf_congr (hagree c)).trans
      (kerOf_eq_refOf _ _ _ _ _ _ _ _ _ _ hr.1 hr.2.2.2.1 hr.2.2.2.2.1).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
